-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x1024 : Shape := ⟨3, ![256, 64, 1024]⟩
abbrev S256x64 : Shape := ⟨2, ![256, 64]⟩
abbrev S_ : Shape := ⟨0, ![]⟩

class Facts : Prop where
  bcast_S_S256x64x1024 : S_.BroadcastsInDim S256x64x1024 (![] : Fin 0 → Fin S256x64x1024.rank)
  reducesTo_S256x64x1024_S_d0_1_2 : S256x64x1024.ReducesTo [0, 1, 2] S_
  h_S_ : 0 < S_.numel

variable [Facts]

def fn {F : FTy → Type} [FloatOps F] (main_arg0 : FVec F S256x64x1024 .f32) (main_arg1 : IVec S256x64 32) : IVec S_ 1 :=
  let main_v0 : FVec F S256x64x1024 .f32 := Host.absf main_arg0
  let main_cst : FVec F S_ .f32 := constant S_ .f32 0x7F800000#32
  let main_v1 : FVec F S256x64x1024 .f32 := broadcastInDim S256x64x1024 ![] bcast_S_S256x64x1024 main_cst
  let main_v2 : IVec S256x64x1024 1 := cmpf .olt main_v0 main_v1
  let main_c : IVec S_ 1 := constantI S_ 1 1#1
  let main_v3 : IVec S_ 1 := (fun x v => Host.reduce IntOp.andi x v reducesTo_S256x64x1024_S_d0_1_2 h_S_) main_v2 main_c
  main_v3
-- ==== Kernel.lean ====
abbrev S256x64x1024 : Shape := ⟨3, ![256, 64, 1024]⟩
abbrev S256x64 : Shape := ⟨2, ![256, 64]⟩
abbrev S64x64 : Shape := ⟨2, ![64, 64]⟩
abbrev S64x1x64 : Shape := ⟨3, ![64, 1, 64]⟩
abbrev S256x64x64 : Shape := ⟨3, ![256, 64, 64]⟩
abbrev S16x64x1024 : Shape := ⟨3, ![16, 64, 1024]⟩
abbrev S16x64x64 : Shape := ⟨3, ![16, 64, 64]⟩
abbrev S16x64 : Shape := ⟨2, ![16, 64]⟩
abbrev S16x64x1 : Shape := ⟨3, ![16, 64, 1]⟩
abbrev S64x256x64 : Shape := ⟨3, ![64, 256, 64]⟩
abbrev S64x256 : Shape := ⟨2, ![64, 256]⟩
abbrev S64x1x256 : Shape := ⟨3, ![64, 1, 256]⟩
abbrev S64x1x128 : Shape := ⟨3, ![64, 1, 128]⟩
abbrev S1x256x64 : Shape := ⟨3, ![1, 256, 64]⟩
abbrev S1x1x256 : Shape := ⟨3, ![1, 1, 256]⟩
abbrev S1x1x64 : Shape := ⟨3, ![1, 1, 64]⟩
abbrev S1x1x128 : Shape := ⟨3, ![1, 1, 128]⟩
abbrev S256 : Shape := ⟨1, ![256]⟩
abbrev S64 : Shape := ⟨1, ![64]⟩
abbrev S1x64 : Shape := ⟨2, ![1, 64]⟩
abbrev S256x64x1 : Shape := ⟨3, ![256, 64, 1]⟩
abbrev S256x1x64 : Shape := ⟨3, ![256, 1, 64]⟩
abbrev S1x64x1 : Shape := ⟨3, ![1, 64, 1]⟩
abbrev S1x64x64 : Shape := ⟨3, ![1, 64, 64]⟩
abbrev S256x1x1 : Shape := ⟨3, ![256, 1, 1]⟩
abbrev S256x1 : Shape := ⟨2, ![256, 1]⟩
abbrev S1 : Shape := ⟨1, ![1]⟩
abbrev S1x1 : Shape := ⟨2, ![1, 1]⟩
abbrev S1x128 : Shape := ⟨2, ![1, 128]⟩
abbrev S64x1x1 : Shape := ⟨3, ![64, 1, 1]⟩
abbrev S_ : Shape := ⟨0, ![]⟩

abbrev nBuf : Space → Nat
  | .hbm => 26
  | .vmem => 15
  | .smem => 0
  | _ => 0

abbrev bufTy : (tb : Table) → Fin (tcTables nBuf tb) → BufTy
  | .hbm, ⟨0, _⟩ => ⟨S256x64x1024, .f32⟩
  | .hbm, ⟨1, _⟩ => ⟨S256x64, .i32⟩
  | .hbm, ⟨2, _⟩ => ⟨S64x64, .f32⟩
  | .hbm, ⟨3, _⟩ => ⟨S64x64, .f32⟩
  | .hbm, ⟨4, _⟩ => ⟨S64x1x64, .f32⟩
  | .hbm, ⟨5, _⟩ => ⟨S64x1x64, .f32⟩
  | .hbm, ⟨6, _⟩ => ⟨S256x64x64, .f32⟩
  | .hbm, ⟨7, _⟩ => ⟨S64x256x64, .f32⟩
  | .hbm, ⟨8, _⟩ => ⟨S256x64, .f32⟩
  | .hbm, ⟨9, _⟩ => ⟨S64x256, .f32⟩
  | .hbm, ⟨10, _⟩ => ⟨S64x1x256, .f32⟩
  | .hbm, ⟨11, _⟩ => ⟨S64x1x128, .f32⟩
  | .hbm, ⟨12, _⟩ => ⟨S64x1x1, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S64x1x1, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S16x64x1024, .f32⟩
  | .local _ .vmem, ⟨1, _⟩ => ⟨S16x64x1024, .f32⟩
  | .local _ .vmem, ⟨2, _⟩ => ⟨S16x64x64, .f32⟩
  | .local _ .vmem, ⟨3, _⟩ => ⟨S16x64x64, .f32⟩
  | .local _ .vmem, ⟨4, _⟩ => ⟨S1x256x64, .f32⟩
  | .local _ .vmem, ⟨5, _⟩ => ⟨S1x256x64, .f32⟩
  | .local _ .vmem, ⟨6, _⟩ => ⟨S256x64, .f32⟩
  | .local _ .vmem, ⟨7, _⟩ => ⟨S1x1x256, .f32⟩
  | .local _ .vmem, ⟨8, _⟩ => ⟨S1x1x256, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x128, .f32⟩
  | .local _ .vmem, ⟨14, _⟩ => ⟨S1x1x128, .f32⟩
  | _, _ => ⟨S256x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64x64_S64x1x64 : S64x64.ShapeCasts S64x1x64
  inb_S16x64x1024_S16x64x1024_0_0_0 : ∀ a, (![0, 0, 0] : Fin 3 → Nat) a + S16x64x1024.size a ≤ S16x64x1024.size a
  h_S16x64x1024 : 0 < S16x64x1024.numel
  reduces_S16x64x1024_S16x64 : S16x64x1024.Reduces [2] S16x64
  shapeCasts_S16x64_S16x64x1 : S16x64.ShapeCasts S16x64x1
  broadcasts_S16x64x1_S16x64x1024 : S16x64x1.Broadcasts S16x64x1024
  bitsLt_bf16_f32 : FTy.bits .bf16 < FTy.bits .f32
  inb_S16x64x64_S16x64x64_0_0_0 : ∀ a, (![0, 0, 0] : Fin 3 → Nat) a + S16x64x64.size a ≤ S16x64x64.size a
  h_S16x64x64 : 0 < S16x64x64.numel
  transposes_S256x64x64_S64x256x64_1_0_2 : S256x64x64.Transposes [1, 0, 2] S64x256x64
  transposes_S256x64_S64x256_1_0 : S256x64.Transposes [1, 0] S64x256
  shapeCasts_S64x256_S64x1x256 : S64x256.ShapeCasts S64x1x256
  inb_S1x256x64_S1x256x64_0_0_0 : ∀ a, (![0, 0, 0] : Fin 3 → Nat) a + S1x256x64.size a ≤ S1x256x64.size a
  h_S1x256x64 : 0 < S1x256x64.numel
  shapeCasts_S1x256x64_S1x256x64 : S1x256x64.ShapeCasts S1x256x64
  shapeCasts_S1x256x64_S256x64 : S1x256x64.ShapeCasts S256x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S1x1x256_S256 : S1x1x256.ShapeCasts S256
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  shapeCasts_S1x1x64_S64 : S1x1x64.ShapeCasts S64
  shapeCasts_S64_S1x64 : S64.ShapeCasts S1x64
  broadcasts_S1x64_S256x64 : S1x64.Broadcasts S256x64
  shapeCasts_S256x64_S256x64x1 : S256x64.ShapeCasts S256x64x1
  shapeCasts_S256x64_S256x1x64 : S256x64.ShapeCasts S256x1x64
  broadcasts_S256x64x1_S256x64x64 : S256x64x1.Broadcasts S256x64x64
  broadcasts_S256x1x64_S256x64x64 : S256x1x64.Broadcasts S256x64x64
  shapeCasts_S64_S1x64x1 : S64.ShapeCasts S1x64x1
  shapeCasts_S64_S1x1x64 : S64.ShapeCasts S1x1x64
  broadcasts_S1x64x1_S1x64x64 : S1x64x1.Broadcasts S1x64x64
  broadcasts_S1x1x64_S1x64x64 : S1x1x64.Broadcasts S1x64x64
  shapeCasts_S256_S256x1x1 : S256.ShapeCasts S256x1x1
  broadcasts_S256x1x1_S256x64x64 : S256x1x1.Broadcasts S256x64x64
  broadcasts_S1x64x64_S256x64x64 : S1x64x64.Broadcasts S256x64x64
  reduces_S256x64x64_S256x64 : S256x64x64.Reduces [2] S256x64
  reduces_S256x64_S256 : S256x64.Reduces [1] S256
  shapeCasts_S256_S256x1 : S256.ShapeCasts S256x1
  reduces_S256x1_S1 : S256x1.Reduces [0] S1
  shapeCasts_S1_S1x1 : S1.ShapeCasts S1x1
  iota_S1x128_d1_w32 : S1x128.Iotas .tc 32 [1]
  shapeCasts_S1x1_S1x1 : S1x1.ShapeCasts S1x1
  broadcasts_S1x1_S1x128 : S1x1.Broadcasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  slices_S64x1x128_S64x1x1_0_0_0 : S64x1x128.Slices ![0, 0, 0] S64x1x1
  shapeCasts_S64x1x1_S64 : S64x1x1.ShapeCasts S64
  reducesTo_S64_S_d0 : S64.ReducesTo [0] S_
  h_S_ : 0 < S_.numel
  slices_S64x1x128_S64x1x1_0_0_1 : S64x1x128.Slices ![0, 0, 1] S64x1x1
  dot_S16x64x1024_S16x64x1024_S16x64x64_2_2_1_1_0_0_wf : DotDims.WF S16x64x1024 S16x64x1024 S16x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x1024.size a ≤ S256x64x1024.size a
  hwx0_0 : ∀ i : grid0.Coords, EltTy.bits .f32 = 32 ∨ (Rect.block (s := S256x64x1024) S16x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x64.size a ≤ S256x64x64.size a
  hwx0_1 : ∀ i : grid0.Coords, EltTy.bits .f32 = 32 ∨ (Rect.block (s := S256x64x64) S16x64x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S64x256x64.size a
  hwx1_0 : ∀ i : grid1.Coords, EltTy.bits .f32 = 32 ∨ (Rect.block (s := S64x256x64) S1x256x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S64x1x256.size a
  hwx1_2 : ∀ i : grid1.Coords, EltTy.bits .f32 = 32 ∨ (Rect.block (s := S64x1x256) S1x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S64x1x64.size a
  hwx1_3 : ∀ i : grid1.Coords, EltTy.bits .f32 = 32 ∨ (Rect.block (s := S64x1x64) S1x1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x64.size a ≤ S64x1x64.size a
  hwx1_4 : ∀ i : grid1.Coords, EltTy.bits .f32 = 32 ∨ (Rect.block (s := S64x1x64) S1x1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S64x1x128.size a
  hwx1_5 : ∀ i : grid1.Coords, EltTy.bits .f32 = 32 ∨ (Rect.block (s := S64x1x128) S1x1x128.size (cc1_transform_5 i) (hinb1_5 i)).WholeWords (EltTy.packing .f32)

variable [Facts₀]

def dot_S16x64x1024_S16x64x1024_S16x64x64_2_2_1_1_0_0 : DotDims S16x64x1024 S16x64x1024 S16x64x64 where
  lhsContracting := [2]
  rhsContracting := [2]
  lhsNonContracting := [1]
  rhsNonContracting := [1]
  lhsBatch := [0]
  rhsBatch := [0]
  wf := dot_S16x64x1024_S16x64x1024_S16x64x64_2_2_1_1_0_0_wf

abbrev win0_0 : Pipeline.Window sig grid0 :=
  Pipeline.Window.ofSpec (Memref.whole main_arg0) S16x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S256x64x1024 : Shape := ⟨3, ![256, 64, 1024]⟩
abbrev S256x64 : Shape := ⟨2, ![256, 64]⟩
abbrev S64x64 : Shape := ⟨2, ![64, 64]⟩
abbrev S_ : Shape := ⟨0, ![]⟩
abbrev S256x64x1 : Shape := ⟨3, ![256, 64, 1]⟩
abbrev S256x64x64 : Shape := ⟨3, ![256, 64, 64]⟩
abbrev S1x64x64 : Shape := ⟨3, ![1, 64, 64]⟩
abbrev S256x64x64x1 : Shape := ⟨4, ![256, 64, 64, 1]⟩
abbrev S256x64x1x64 : Shape := ⟨4, ![256, 64, 1, 64]⟩
abbrev S256x64x64x64 : Shape := ⟨4, ![256, 64, 64, 64]⟩
abbrev S256x64x1x1 : Shape := ⟨4, ![256, 64, 1, 1]⟩
abbrev S256x1x64x1 : Shape := ⟨4, ![256, 1, 64, 1]⟩
abbrev S256x1x1x64 : Shape := ⟨4, ![256, 1, 1, 64]⟩
abbrev S1x64x64x1 : Shape := ⟨4, ![1, 64, 64, 1]⟩
abbrev S1x64x1x64 : Shape := ⟨4, ![1, 64, 1, 64]⟩

abbrev nBuf : Space → Nat
  | .hbm => 62
  | .vmem => 0
  | .smem => 0
  | _ => 0

abbrev bufTy : (tb : Table) → Fin (tcTables nBuf tb) → BufTy
  | .hbm, ⟨0, _⟩ => ⟨S256x64x1024, .f32⟩
  | .hbm, ⟨1, _⟩ => ⟨S256x64, .i32⟩
  | .hbm, ⟨2, _⟩ => ⟨S64x64, .f32⟩
  | .hbm, ⟨3, _⟩ => ⟨S64x64, .f32⟩
  | .hbm, ⟨4, _⟩ => ⟨S256x64, .f32⟩
  | .hbm, ⟨5, _⟩ => ⟨S256x64x1024, .f32⟩
  | .hbm, ⟨6, _⟩ => ⟨S_, .f32⟩
  | .hbm, ⟨7, _⟩ => ⟨S256x64, .f32⟩
  | .hbm, ⟨8, _⟩ => ⟨S256x64x1, .f32⟩
  | .hbm, ⟨9, _⟩ => ⟨S256x64x1, .f32⟩
  | .hbm, ⟨10, _⟩ => ⟨S_, .f32⟩
  | .hbm, ⟨11, _⟩ => ⟨S256x64x1, .f32⟩
  | .hbm, ⟨12, _⟩ => ⟨S256x64x1, .f32⟩
  | .hbm, ⟨13, _⟩ => ⟨S256x64x1024, .f32⟩
  | .hbm, ⟨14, _⟩ => ⟨S256x64x1024, .f32⟩
  | .hbm, ⟨15, _⟩ => ⟨S256x64x64, .f32⟩
  | .hbm, ⟨16, _⟩ => ⟨S_, .f32⟩
  | .hbm, ⟨17, _⟩ => ⟨S256x64x64, .f32⟩
  | .hbm, ⟨18, _⟩ => ⟨S256x64x64, .f32⟩
  | .hbm, ⟨19, _⟩ => ⟨S1x64x64, .f32⟩
  | .hbm, ⟨20, _⟩ => ⟨S_, .f32⟩
  | .hbm, ⟨21, _⟩ => ⟨S1x64x64, .f32⟩
  | .hbm, ⟨22, _⟩ => ⟨S1x64x64, .f32⟩
  | .hbm, ⟨23, _⟩ => ⟨S256x64x64, .f32⟩
  | .hbm, ⟨24, _⟩ => ⟨S256x64x64, .f32⟩
  | .hbm, ⟨25, _⟩ => ⟨S256x64x64x1, .f32⟩
  | .hbm, ⟨26, _⟩ => ⟨S256x64x1x64, .f32⟩
  | .hbm, ⟨27, _⟩ => ⟨S256x64x64x64, .f32⟩
  | .hbm, ⟨28, _⟩ => ⟨S256x64x64x64, .f32⟩
  | .hbm, ⟨29, _⟩ => ⟨S256x64x64x64, .f32⟩
  | .hbm, ⟨30, _⟩ => ⟨S256x64x1x1, .f32⟩
  | .hbm, ⟨31, _⟩ => ⟨S256x1x64x1, .f32⟩
  | .hbm, ⟨32, _⟩ => ⟨S256x64x64x1, .f32⟩
  | .hbm, ⟨33, _⟩ => ⟨S256x64x64x1, .f32⟩
  | .hbm, ⟨34, _⟩ => ⟨S256x64x64x1, .f32⟩
  | .hbm, ⟨35, _⟩ => ⟨S256x1x1x64, .f32⟩
  | .hbm, ⟨36, _⟩ => ⟨S256x64x64x64, .f32⟩
  | .hbm, ⟨37, _⟩ => ⟨S256x64x64x64, .f32⟩
  | .hbm, ⟨38, _⟩ => ⟨S256x64x64x64, .f32⟩
  | .hbm, ⟨39, _⟩ => ⟨S1x64x64x1, .f32⟩
  | .hbm, ⟨40, _⟩ => ⟨S256x64x64x64, .f32⟩
  | .hbm, ⟨41, _⟩ => ⟨S256x64x64x64, .f32⟩
  | .hbm, ⟨42, _⟩ => ⟨S_, .f32⟩
  | .hbm, ⟨43, _⟩ => ⟨S64x64, .f32⟩
  | .hbm, ⟨44, _⟩ => ⟨S64x64, .f32⟩
  | .hbm, ⟨45, _⟩ => ⟨S1x64x1x64, .f32⟩
  | .hbm, ⟨46, _⟩ => ⟨S256x64x64x64, .f32⟩
  | .hbm, ⟨47, _⟩ => ⟨S256x64x64x64, .f32⟩
  | .hbm, ⟨48, _⟩ => ⟨S_, .f32⟩
  | .hbm, ⟨49, _⟩ => ⟨S256x64x64x64, .f32⟩
  | .hbm, ⟨50, _⟩ => ⟨S256x64x64x64, .f32⟩
  | .hbm, ⟨51, _⟩ => ⟨S256x64x64x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S256x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call1_cst : Ref sig .tc := ⟨.hbm, 48, rfl⟩
abbrev main_call1_v0 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  reducesTo_S256x64x1024_S256x64_d2 : S256x64x1024.ReducesTo [2] S256x64
  h_S_ : 0 < S_.numel
  bcast_S256x64_S256x64x1_0_1 : S256x64.BroadcastsInDim S256x64x1 (![0, 1] : Fin 2 → Fin S256x64x1.rank)
  bcast_S_S256x64x1 : S_.BroadcastsInDim S256x64x1 (![] : Fin 0 → Fin S256x64x1.rank)
  bcast_S256x64x1_S256x64x1024_0_1_2 : S256x64x1.BroadcastsInDim S256x64x1024 (![0, 1, 2] : Fin 3 → Fin S256x64x1024.rank)
  bcast_S_S256x64x64 : S_.BroadcastsInDim S256x64x64 (![] : Fin 0 → Fin S256x64x64.rank)
  bcast_S64x64_S1x64x64_1_2 : S64x64.BroadcastsInDim S1x64x64 (![1, 2] : Fin 2 → Fin S1x64x64.rank)
  bcast_S_S1x64x64 : S_.BroadcastsInDim S1x64x64 (![] : Fin 0 → Fin S1x64x64.rank)
  bcast_S1x64x64_S256x64x64_0_1_2 : S1x64x64.BroadcastsInDim S256x64x64 (![0, 1, 2] : Fin 3 → Fin S256x64x64.rank)
  bcast_S256x64x64_S256x64x64x1_0_1_2 : S256x64x64.BroadcastsInDim S256x64x64x1 (![0, 1, 2] : Fin 3 → Fin S256x64x64x1.rank)
  bcast_S256x64x64_S256x64x1x64_0_1_3 : S256x64x64.BroadcastsInDim S256x64x1x64 (![0, 1, 3] : Fin 3 → Fin S256x64x1x64.rank)
  bcast_S256x64x64x1_S256x64x64x64_0_1_2_3 : S256x64x64x1.BroadcastsInDim S256x64x64x64 (![0, 1, 2, 3] : Fin 4 → Fin S256x64x64x64.rank)
  bcast_S256x64x1x64_S256x64x64x64_0_1_2_3 : S256x64x1x64.BroadcastsInDim S256x64x64x64 (![0, 1, 2, 3] : Fin 4 → Fin S256x64x64x64.rank)
  bcast_S256x64_S256x64x1x1_0_1 : S256x64.BroadcastsInDim S256x64x1x1 (![0, 1] : Fin 2 → Fin S256x64x1x1.rank)
  bcast_S256x64_S256x1x64x1_0_2 : S256x64.BroadcastsInDim S256x1x64x1 (![0, 2] : Fin 2 → Fin S256x1x64x1.rank)
  bcast_S256x64x1x1_S256x64x64x1_0_1_2_3 : S256x64x1x1.BroadcastsInDim S256x64x64x1 (![0, 1, 2, 3] : Fin 4 → Fin S256x64x64x1.rank)
  bcast_S256x1x64x1_S256x64x64x1_0_1_2_3 : S256x1x64x1.BroadcastsInDim S256x64x64x1 (![0, 1, 2, 3] : Fin 4 → Fin S256x64x64x1.rank)
  bcast_S256x64_S256x1x1x64_0_3 : S256x64.BroadcastsInDim S256x1x1x64 (![0, 3] : Fin 2 → Fin S256x1x1x64.rank)
  bcast_S256x1x1x64_S256x64x64x64_0_1_2_3 : S256x1x1x64.BroadcastsInDim S256x64x64x64 (![0, 1, 2, 3] : Fin 4 → Fin S256x64x64x64.rank)
  bcast_S64x64_S1x64x64x1_1_2 : S64x64.BroadcastsInDim S1x64x64x1 (![1, 2] : Fin 2 → Fin S1x64x64x1.rank)
  bcast_S1x64x64x1_S256x64x64x64_0_1_2_3 : S1x64x64x1.BroadcastsInDim S256x64x64x64 (![0, 1, 2, 3] : Fin 4 → Fin S256x64x64x64.rank)
  bcast_S_S64x64 : S_.BroadcastsInDim S64x64 (![] : Fin 0 → Fin S64x64.rank)
  bcast_S64x64_S1x64x1x64_1_3 : S64x64.BroadcastsInDim S1x64x1x64 (![1, 3] : Fin 2 → Fin S1x64x1x64.rank)
  bcast_S1x64x1x64_S256x64x64x64_0_1_2_3 : S1x64x1x64.BroadcastsInDim S256x64x64x64 (![0, 1, 2, 3] : Fin 4 → Fin S256x64x64x64.rank)
  bcast_S_S256x64x64x64 : S_.BroadcastsInDim S256x64x64x64 (![] : Fin 0 → Fin S256x64x64x64.rank)
  reducesTo_S256x64x64x64_S_d0_1_2_3 : S256x64x64x64.ReducesTo [0, 1, 2, 3] S_
  dot_S256x64x1024_S256x64x1024_S256x64x64_2_2_1_1_0_0_wf : DotDims.WF S256x64x1024 S256x64x1024 S256x64x64 [2] [2] [1] [1] [0] [0]

variable [Facts₀]

def dot_S256x64x1024_S256x64x1024_S256x64x64_2_2_1_1_0_0 : DotDims S256x64x1024 S256x64x1024 S256x64x64 where
  lhsContracting := [2]
  rhsContracting := [2]
  lhsNonContracting := [1]
  rhsNonContracting := [1]
  lhsBatch := [0]
  rhsBatch := [0]
  wf := dot_S256x64x1024_S256x64x1024_S256x64x64_2_2_1_1_0_0_wf

class Facts : Prop extends Facts₀ where

variable [Facts]
-- ==== Proof.Spec.lean ====
/-
  The mathematics both programs compute, stated once over literal extents and coordinates.

  For features X : [256, 64, 1024] every row X[b, l, :] is divided by max(‖X[b, l, :]‖, floor) (the floor a tiny
  positive constant), and D[b, l, m] = 1 - ⟨u[b, l, :], u[b, m, :]⟩ is the cosine distance of two unit rows. With
  labels lab : [256, 64] (integers read as reals), a 0/1 ancestor table anc : [64, 64] and a table of level
  differences ld : [64, 64], a triplet (b, a, p, n) contributes the hinge max(D[b,a,p] - (D[b,a,n] - 1·ld[a,n]), 0)
  weighted by the mask lab[b,a]·lab[b,p]·lab[b,n]·anc[a,p]·(1 - anc[a,n]). The loss is the sum of the weighted hinges,
  the count the sum of the masks, and the result is loss / max(count, 1) when count > 0 and the loss otherwise.

  Two groupings of the five-factor mask and two orders of summation occur: one groups the mask as
  (lab_a · (lab_p · lab_n)) · (anc · (1 - anc)) and sums over n, then p, then b, then a; the other multiplies the
  factors left to right and takes one sum over all (b, a, p, n). On the extended reals multiplication is commutative
  and associative and finite sums may be reordered, so the two agree (`loss_eq`, `count_eq`): no finiteness is used.
-/
import Idealize.ShloMosaic.PureOps.Ideal
import Idealize.ShloMosaic.Lib.ValueIdx

noncomputable section

open scoped BigOperators

namespace Cert.TripletSpec

open Idealize.ShloMosaic Idealize.ShloMosaic.ValueIdx

/-- The constant 1 as both programs spell it (the same word on both sides: never evaluated). -/
abbrev one : EReal := Ideal.ofBits .f32 0x3F800000#32
/-- The floor under a row's norm, as both programs spell it. -/
abbrev normFloor : EReal := Ideal.ofBits .f32 0x2B8CBCCC#32
/-- The zero a hinge is clipped at, as both programs spell it. -/
abbrev zeroW : EReal := Ideal.ofBits .f32 0x00000000#32

/-- max(‖X[b, l, :]‖, floor): the square root of the row's sum of squares, floored. -/
def rowNorm (X : (⟨3, ![256, 64, 1024]⟩ : Shape).Idx → EReal) (b : Fin 256) (l : Fin 64) : EReal :=
  max (Ideal.sqrt (∑ k : Fin 1024, X (ix3 b l k) * X (ix3 b l k))) normFloor

/-- u[b, l, d] = X[b, l, d] / max(‖X[b, l, :]‖, floor). -/
def unitRow (X : (⟨3, ![256, 64, 1024]⟩ : Shape).Idx → EReal) (b : Fin 256) (l : Fin 64) (d : Fin 1024) : EReal :=
  Ideal.div (X (ix3 b l d)) (rowNorm X b l)

/-- D[b, l, m] = 1 - ∑_d u[b, l, d] · u[b, m, d]. -/
def cosD (X : (⟨3, ![256, 64, 1024]⟩ : Shape).Idx → EReal) (b : Fin 256) (l m : Fin 64) : EReal :=
  one - ∑ k : Fin 1024, unitRow X b l k * unitRow X b m k

/-- The hinge of a triplet: max(D[b,a,p] - (D[b,a,n] - 1 · ld[a,n]), 0). -/
def hinge (D : Fin 256 → Fin 64 → Fin 64 → EReal) (ld : Fin 64 → Fin 64 → EReal) (b : Fin 256) (a p n : Fin 64) : EReal :=
  max (D b a p - (D b a n - one * ld a n)) zeroW

/-- The mask grouped as (lab_a · (lab_p · lab_n)) · (anc[a,p] · (1 - anc[a,n])); the anchor's label is read from its
    own array `labA` (the transposed copy), the other two from `lab`. -/
def maskK (labA lab : Fin 256 → Fin 64 → EReal) (anc : Fin 64 → Fin 64 → EReal) (b : Fin 256) (a p n : Fin 64) : EReal :=
  (labA b a * (lab b p * lab b n)) * (anc a p * (one - anc a n))

/-- The mask multiplied left to right: (((lab_a · lab_p) · lab_n) · anc[a,p]) · (1 - anc[a,n]). -/
def maskR (lab : Fin 256 → Fin 64 → EReal) (anc : Fin 64 → Fin 64 → EReal) (b : Fin 256) (a p n : Fin 64) : EReal :=
  (((lab b a * lab b p) * lab b n) * anc a p) * (one - anc a n)

/-- The weighted hinges of anchor label `a`, summed over n, then p, then b. -/
def lossRow (D : Fin 256 → Fin 64 → Fin 64 → EReal) (ld : Fin 64 → Fin 64 → EReal) (labA lab : Fin 256 → Fin 64 → EReal)
    (anc : Fin 64 → Fin 64 → EReal) (a : Fin 64) : EReal :=
  ∑ b : Fin 256, ∑ p : Fin 64, ∑ n : Fin 64, hinge D ld b a p n * maskK labA lab anc b a p n

/-- The masks of anchor label `a`, summed over n, then p, then b. -/
def countRow (labA lab : Fin 256 → Fin 64 → EReal) (anc : Fin 64 → Fin 64 → EReal) (a : Fin 64) : EReal :=
  ∑ b : Fin 256, ∑ p : Fin 64, ∑ n : Fin 64, maskK labA lab anc b a p n

/-- The loss as the sum of the per-anchor rows. -/
def lossK (D : Fin 256 → Fin 64 → Fin 64 → EReal) (ld : Fin 64 → Fin 64 → EReal) (lab : Fin 256 → Fin 64 → EReal)
    (anc : Fin 64 → Fin 64 → EReal) : EReal :=
  ∑ a : Fin 64, lossRow D ld lab lab anc a

/-- The count as the sum of the per-anchor rows. -/
def countK (lab : Fin 256 → Fin 64 → EReal) (anc : Fin 64 → Fin 64 → EReal) : EReal :=
  ∑ a : Fin 64, countRow lab lab anc a

/-- The loss as one sum over every triplet (b, a, p, n). -/
def lossR (D : Fin 256 → Fin 64 → Fin 64 → EReal) (ld : Fin 64 → Fin 64 → EReal) (lab : Fin 256 → Fin 64 → EReal)
    (anc : Fin 64 → Fin 64 → EReal) : EReal :=
  ∑ i : (⟨4, ![256, 64, 64, 64]⟩ : Shape).Idx, hinge D ld (i 0) (i 1) (i 2) (i 3) * maskR lab anc (i 0) (i 1) (i 2) (i 3)

/-- The count as one sum over every triplet. -/
def countR (lab : Fin 256 → Fin 64 → EReal) (anc : Fin 64 → Fin 64 → EReal) : EReal :=
  ∑ i : (⟨4, ![256, 64, 64, 64]⟩ : Shape).Idx, maskR lab anc (i 0) (i 1) (i 2) (i 3)

/-- The closing step both programs share, on rank-0 arrays: loss / max(count, 1) where count > 0, else the loss. It is
    kept as the programs' own operations and never opened. -/
def closing (L C : (⟨0, ![]⟩ : Shape).Idx → EReal) : (⟨0, ![]⟩ : Shape).Idx → EReal :=
  select (cmpf (F := Ideal) (φ := .f32) .ogt C (constant (F := Ideal) ⟨0, ![]⟩ .f32 0x00000000#32))
    (Host.divf (F := Ideal) (φ := .f32) L (maximumf (F := Ideal) (φ := .f32) C (constant (F := Ideal) ⟨0, ![]⟩ .f32 0x3F800000#32))) L

/-! ## The two groupings agree -/

/-- The two groupings of the mask are one product (commutativity and associativity of · on the extended reals). -/
theorem maskK_eq_maskR (lab : Fin 256 → Fin 64 → EReal) (anc : Fin 64 → Fin 64 → EReal) (b : Fin 256) (a p n : Fin 64) :
    maskK lab lab anc b a p n = maskR lab anc b a p n := by
  unfold maskK maskR
  simp only [mul_assoc]

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun q := ix4 q.1 q.2.1 q.2.2.1 q.2.2.2
  left_inv i := (eq_ix4 i).symm
  right_inv _ := rfl

/-- So a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- One sum over every triplet is the sum over a of the sums over b, p, n (the order of two finite sums exchanged). -/
theorem total_eq_rows {M : Type*} [AddCommMonoid M] (f : Fin 256 → Fin 64 → Fin 64 → Fin 64 → M) :
    ∑ i : (⟨4, ![256, 64, 64, 64]⟩ : Shape).Idx, f (i 0) (i 1) (i 2) (i 3)
      = ∑ a : Fin 64, ∑ b : Fin 256, ∑ p : Fin 64, ∑ n : Fin 64, f b a p n := by
  rw [sum_idx4 (fun i : (⟨4, ![256, 64, 64, 64]⟩ : Shape).Idx => f (i 0) (i 1) (i 2) (i 3))]
  exact Finset.sum_comm

/-- The loss summed row by row is the loss summed over every triplet. -/
theorem loss_eq (D : Fin 256 → Fin 64 → Fin 64 → EReal) (ld : Fin 64 → Fin 64 → EReal) (lab : Fin 256 → Fin 64 → EReal)
    (anc : Fin 64 → Fin 64 → EReal) : lossK D ld lab anc = lossR D ld lab anc := by
  unfold lossK lossR lossRow
  rw [total_eq_rows (fun b a p n => hinge D ld b a p n * maskR lab anc b a p n)]
  simp only [maskK_eq_maskR]

/-- The count summed row by row is the count summed over every triplet. -/
theorem count_eq (lab : Fin 256 → Fin 64 → EReal) (anc : Fin 64 → Fin 64 → EReal) : countK lab anc = countR lab anc := by
  unfold countK countR countRow
  rw [total_eq_rows (fun b a p n => maskR lab anc b a p n)]
  simp only [maskK_eq_maskR]

end Cert.TripletSpec

end
-- ==== Proof.RefTerm.lean ====
/-
  The reference program's result as ONE pure term of its two argument arrays: its operations composed in program
  order (the outlined norm, relu and select bodies inlined where they are called), every intermediate named as the
  program names it. Nothing is proved here; the run is proved to end at this term, and the term is read index by index
  elsewhere.
-/
import proofs.«154496_j7928509628770_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The ancestor table as the program's constant holds it: entry (a, p) is the word at row-major position of (a, p). -/
def ancTable : FVec F S64x64 .f32 := fun i => FloatOps.ofBits .f32 (lit0 (S64x64.rowMajor i))
/-- The level-difference table likewise. -/
def ldTable : FVec F S64x64 .f32 := fun i => FloatOps.ofBits .f32 (lit1 (S64x64.rowMajor i))

/-- Rows divided by their floored norms, then 1 - the batched product of the unit rows with themselves: the array of
    cosine distances [256, 64, 64]. -/
def distTerm (arg0 : FVec F S256x64x1024 .f32) : FVec F S256x64x64 .f32 :=
  have n0 : FVec F S256x64x1024 .f32 := mulf arg0 arg0
  have ncst : FVec F S_ .f32 := constant S_ .f32 0x00000000#32
  have n1 : FVec F S256x64 .f32 := Host.reduceAdd n0 ncst reducesTo_S256x64x1024_S256x64_d2 h_S_
  have n2 : FVec F S256x64x1 .f32 := broadcastInDim S256x64x1 ![0, 1] bcast_S256x64_S256x64x1_0_1 n1
  have v1 : FVec F S256x64x1 .f32 := Host.sqrt n2
  have cst_1 : FVec F S_ .f32 := constant S_ .f32 0x2B8CBCCC#32
  have v2 : FVec F S256x64x1 .f32 := broadcastInDim S256x64x1 ![] bcast_S_S256x64x1 cst_1
  have v3 : FVec F S256x64x1 .f32 := maximumf v1 v2
  have v4 : FVec F S256x64x1024 .f32 := broadcastInDim S256x64x1024 ![0, 1, 2] bcast_S256x64x1_S256x64x1024_0_1_2 v3
  have v5 : FVec F S256x64x1024 .f32 := Host.divf arg0 v4
  have v6 : FVec F S256x64x64 .f32 := Host.dotGeneral dot_S256x64x1024_S256x64x1024_S256x64x64_2_2_1_1_0_0 none v5 v5
  have cst_2 : FVec F S_ .f32 := constant S_ .f32 0x3F800000#32
  have v7 : FVec F S256x64x64 .f32 := broadcastInDim S256x64x64 ![] bcast_S_S256x64x64 cst_2
  subf v7 v6

/-- The hinge argument over [256, 64, 64, 64]: D[b,a,p] - (D[b,a,n] - 1 · ld[a,n]), from the distances `v8`. -/
def argTerm (v8 : FVec F S256x64x64 .f32) (cst_0 : FVec F S64x64 .f32) : FVec F S256x64x64x64 .f32 :=
  have v9 : FVec F S1x64x64 .f32 := broadcastInDim S1x64x64 ![1, 2] bcast_S64x64_S1x64x64_1_2 cst_0
  have cst_3 : FVec F S_ .f32 := constant S_ .f32 0x3F800000#32
  have v10 : FVec F S1x64x64 .f32 := broadcastInDim S1x64x64 ![] bcast_S_S1x64x64 cst_3
  have v11 : FVec F S1x64x64 .f32 := mulf v10 v9
  have v12 : FVec F S256x64x64 .f32 := broadcastInDim S256x64x64 ![0, 1, 2] bcast_S1x64x64_S256x64x64_0_1_2 v11
  have v13 : FVec F S256x64x64 .f32 := subf v8 v12
  have v14 : FVec F S256x64x64x1 .f32 := broadcastInDim S256x64x64x1 ![0, 1, 2] bcast_S256x64x64_S256x64x64x1_0_1_2 v8
  have v15 : FVec F S256x64x1x64 .f32 := broadcastInDim S256x64x1x64 ![0, 1, 3] bcast_S256x64x64_S256x64x1x64_0_1_3 v13
  have v16 : FVec F S256x64x64x64 .f32 := broadcastInDim S256x64x64x64 ![0, 1, 2, 3] bcast_S256x64x64x1_S256x64x64x64_0_1_2_3 v14
  have v17 : FVec F S256x64x64x64 .f32 := broadcastInDim S256x64x64x64 ![0, 1, 2, 3] bcast_S256x64x1x64_S256x64x64x64_0_1_2_3 v15
  subf v16 v17

/-- The mask over [256, 64, 64, 64]: (((lab_a · lab_p) · lab_n) · anc[a,p]) · (1 - anc)[a,n], from the labels `v0` as reals. -/
def maskTerm (v0 : FVec F S256x64 .f32) (cst : FVec F S64x64 .f32) : FVec F S256x64x64x64 .f32 :=
  have v19 : FVec F S256x64x1x1 .f32 := broadcastInDim S256x64x1x1 ![0, 1] bcast_S256x64_S256x64x1x1_0_1 v0
  have v20 : FVec F S256x1x64x1 .f32 := broadcastInDim S256x1x64x1 ![0, 2] bcast_S256x64_S256x1x64x1_0_2 v0
  have v21 : FVec F S256x64x64x1 .f32 := broadcastInDim S256x64x64x1 ![0, 1, 2, 3] bcast_S256x64x1x1_S256x64x64x1_0_1_2_3 v19
  have v22 : FVec F S256x64x64x1 .f32 := broadcastInDim S256x64x64x1 ![0, 1, 2, 3] bcast_S256x1x64x1_S256x64x64x1_0_1_2_3 v20
  have v23 : FVec F S256x64x64x1 .f32 := mulf v21 v22
  have v24 : FVec F S256x1x1x64 .f32 := broadcastInDim S256x1x1x64 ![0, 3] bcast_S256x64_S256x1x1x64_0_3 v0
  have v25 : FVec F S256x64x64x64 .f32 := broadcastInDim S256x64x64x64 ![0, 1, 2, 3] bcast_S256x64x64x1_S256x64x64x64_0_1_2_3 v23
  have v26 : FVec F S256x64x64x64 .f32 := broadcastInDim S256x64x64x64 ![0, 1, 2, 3] bcast_S256x1x1x64_S256x64x64x64_0_1_2_3 v24
  have v27 : FVec F S256x64x64x64 .f32 := mulf v25 v26
  have v28 : FVec F S1x64x64x1 .f32 := broadcastInDim S1x64x64x1 ![1, 2] bcast_S64x64_S1x64x64x1_1_2 cst
  have v29 : FVec F S256x64x64x64 .f32 := broadcastInDim S256x64x64x64 ![0, 1, 2, 3] bcast_S1x64x64x1_S256x64x64x64_0_1_2_3 v28
  have v30 : FVec F S256x64x64x64 .f32 := mulf v27 v29
  have cst_4 : FVec F S_ .f32 := constant S_ .f32 0x3F800000#32
  have v31 : FVec F S64x64 .f32 := broadcastInDim S64x64 ![] bcast_S_S64x64 cst_4
  have v32 : FVec F S64x64 .f32 := subf v31 cst
  have v33 : FVec F S1x64x1x64 .f32 := broadcastInDim S1x64x1x64 ![1, 3] bcast_S64x64_S1x64x1x64_1_3 v32
  have v34 : FVec F S256x64x64x64 .f32 := broadcastInDim S256x64x64x64 ![0, 1, 2, 3] bcast_S1x64x1x64_S256x64x64x64_0_1_2_3 v33
  mulf v30 v34

/-- The loss before the closing step: the clipped hinge arguments times the masks, summed over all four axes from 0. -/
def lossTerm (v18 v35 : FVec F S256x64x64x64 .f32) : FVec F S_ .f32 :=
  have rcst : FVec F S_ .f32 := constant S_ .f32 0x00000000#32
  have r0 : FVec F S256x64x64x64 .f32 := broadcastInDim S256x64x64x64 ![] bcast_S_S256x64x64x64 rcst
  have v36 : FVec F S256x64x64x64 .f32 := maximumf v18 r0
  have v37 : FVec F S256x64x64x64 .f32 := mulf v36 v35
  have cst_5 : FVec F S_ .f32 := constant S_ .f32 0x00000000#32
  Host.reduceAdd v37 cst_5 reducesTo_S256x64x64x64_S_d0_1_2_3 h_S_

/-- The count before the closing step: the masks summed over all four axes from 0. -/
def countTerm (v35 : FVec F S256x64x64x64 .f32) : FVec F S_ .f32 :=
  have cst_6 : FVec F S_ .f32 := constant S_ .f32 0x00000000#32
  Host.reduceAdd v35 cst_6 reducesTo_S256x64x64x64_S_d0_1_2_3 h_S_

/-- The closing step: loss / max(count, 1) where count > 0, else the loss. -/
def closeTerm (v38 v39 : FVec F S_ .f32) : FVec F S_ .f32 :=
  have cst_7 : FVec F S_ .f32 := constant S_ .f32 0x00000000#32
  have v40 : IVec S_ 1 := cmpf .ogt v39 cst_7
  have cst_8 : FVec F S_ .f32 := constant S_ .f32 0x3F800000#32
  have v41 : FVec F S_ .f32 := maximumf v39 cst_8
  have v42 : FVec F S_ .f32 := Host.divf v38 v41
  select v40 v42 v38

/-- The program's result of its two arguments. -/
def resultTerm (arg0 : FVec F S256x64x1024 .f32) (arg1 : IVec S256x64 32) : FVec F S_ .f32 :=
  have cst : FVec F S64x64 .f32 := ancTable
  have cst_0 : FVec F S64x64 .f32 := ldTable
  have v0 : FVec F S256x64 .f32 := sitofp .f32 arg1
  have v8 : FVec F S256x64x64 .f32 := distTerm arg0
  have v18 : FVec F S256x64x64x64 .f32 := argTerm v8 cst_0
  have v35 : FVec F S256x64x64x64 .f32 := maskTerm v0 cst
  closeTerm (lossTerm v18 v35) (countTerm v35)

end Cert.ReferenceIdeal.RefValue

end
-- ==== Proof.RefRun.lean ====
/-
  The reference program run to its end. Its sixty host operations are listed in program order — the three outlined
  functions (the row norm, the clipping at zero, the final choice) written out where they are called, over the buffers
  of each call — and every weakly fair execution is shown to terminate with the result buffer holding the one pure
  term `resultTerm` of the two arguments, the arguments themselves untouched.
-/
import proofs.«154496_j7928509628770_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's sixty operations, in order: the two dense tables, the labels as reals, the five steps of the row
    norm, the floor and the division, the batched product and the distances, the broadcasts and differences of the
    hinge argument, the products of the mask, the three steps of the clipping, the two total sums, and the closing
    comparison, maximum, quotient and choice. -/
abbrev ops : List (HloOp τ sig (Elt F)) :=
  [ nullary main_cst (fun i => FloatOps.ofBits .f32 (lit0 (S64x64.rowMajor i))),
    nullary main_cst_0 (fun i => FloatOps.ofBits .f32 (lit1 (S64x64.rowMajor i))),
    unary main_arg1 main_v0 (sitofp .f32 : (⟨S256x64, .i32⟩ : BufTy).Contents (Elt F) → (⟨S256x64, .f32⟩ : BufTy).Contents (Elt F)),
    TRef.binary (.of main_arg0 : TRef sig ⟨S256x64x1024, .f32⟩) (.of main_arg0 : TRef sig ⟨S256x64x1024, .f32⟩) main_call0.v0 mulf,
    TRef.nullary main_call0.cst (constant S_ .f32 0x00000000#32),
    TRef.binary main_call0.v0 main_call0.cst main_call0.v1 (fun x v => Host.reduceAdd x v reducesTo_S256x64x1024_S256x64_d2 h_S_),
    TRef.unary main_call0.v1 main_call0.v2 (broadcastInDim S256x64x1 ![0, 1] bcast_S256x64_S256x64x1_0_1),
    TRef.unary main_call0.v2 main_call0.v3 Host.sqrt,
    nullary main_cst_1 (constant S_ .f32 0x2B8CBCCC#32),
    unary main_cst_1 main_v2 (broadcastInDim S256x64x1 ![] bcast_S_S256x64x1 : (⟨S_, .f32⟩ : BufTy).Contents (Elt F) → (⟨S256x64x1, .f32⟩ : BufTy).Contents (Elt F)),
    binary main_v1 main_v2 main_v3 (maximumf : (⟨S256x64x1, .f32⟩ : BufTy).Contents (Elt F) → (⟨S256x64x1, .f32⟩ : BufTy).Contents (Elt F) → (⟨S256x64x1, .f32⟩ : BufTy).Contents (Elt F)),
    unary main_v3 main_v4 (broadcastInDim S256x64x1024 ![0, 1, 2] bcast_S256x64x1_S256x64x1024_0_1_2 : (⟨S256x64x1, .f32⟩ : BufTy).Contents (Elt F) → (⟨S256x64x1024, .f32⟩ : BufTy).Contents (Elt F)),
    binary main_arg0 main_v4 main_v5 (Host.divf : (⟨S256x64x1024, .f32⟩ : BufTy).Contents (Elt F) → (⟨S256x64x1024, .f32⟩ : BufTy).Contents (Elt F) → (⟨S256x64x1024, .f32⟩ : BufTy).Contents (Elt F)),
    binary main_v5 main_v5 main_v6 ((fun l r => Host.dotGeneral dot_S256x64x1024_S256x64x1024_S256x64x64_2_2_1_1_0_0 none l r) : (⟨S256x64x1024, .f32⟩ : BufTy).Contents (Elt F) → (⟨S256x64x1024, .f32⟩ : BufTy).Contents (Elt F) → (⟨S256x64x64, .f32⟩ : BufTy).Contents (Elt F)),
    nullary main_cst_2 (constant S_ .f32 0x3F800000#32),
    unary main_cst_2 main_v7 (broadcastInDim S256x64x64 ![] bcast_S_S256x64x64 : (⟨S_, .f32⟩ : BufTy).Contents (Elt F) → (⟨S256x64x64, .f32⟩ : BufTy).Contents (Elt F)),
    binary main_v7 main_v6 main_v8 (subf : (⟨S256x64x64, .f32⟩ : BufTy).Contents (Elt F) → (⟨S256x64x64, .f32⟩ : BufTy).Contents (Elt F) → (⟨S256x64x64, .f32⟩ : BufTy).Contents (Elt F)),
    unary main_cst_0 main_v9 (broadcastInDim S1x64x64 ![1, 2] bcast_S64x64_S1x64x64_1_2 : (⟨S64x64, .f32⟩ : BufTy).Contents (Elt F) → (⟨S1x64x64, .f32⟩ : BufTy).Contents (Elt F)),
    nullary main_cst_3 (constant S_ .f32 0x3F800000#32),
    unary main_cst_3 main_v10 (broadcastInDim S1x64x64 ![] bcast_S_S1x64x64 : (⟨S_, .f32⟩ : BufTy).Contents (Elt F) → (⟨S1x64x64, .f32⟩ : BufTy).Contents (Elt F)),
    binary main_v10 main_v9 main_v11 (mulf : (⟨S1x64x64, .f32⟩ : BufTy).Contents (Elt F) → (⟨S1x64x64, .f32⟩ : BufTy).Contents (Elt F) → (⟨S1x64x64, .f32⟩ : BufTy).Contents (Elt F)),
    unary main_v11 main_v12 (broadcastInDim S256x64x64 ![0, 1, 2] bcast_S1x64x64_S256x64x64_0_1_2 : (⟨S1x64x64, .f32⟩ : BufTy).Contents (Elt F) → (⟨S256x64x64, .f32⟩ : BufTy).Contents (Elt F)),
    binary main_v8 main_v12 main_v13 (subf : (⟨S256x64x64, .f32⟩ : BufTy).Contents (Elt F) → (⟨S256x64x64, .f32⟩ : BufTy).Contents (Elt F) → (⟨S256x64x64, .f32⟩ : BufTy).Contents (Elt F)),
    unary main_v8 main_v14 (broadcastInDim S256x64x64x1 ![0, 1, 2] bcast_S256x64x64_S256x64x64x1_0_1_2 : (⟨S256x64x64, .f32⟩ : BufTy).Contents (Elt F) → (⟨S256x64x64x1, .f32⟩ : BufTy).Contents (Elt F)),
    unary main_v13 main_v15 (broadcastInDim S256x64x1x64 ![0, 1, 3] bcast_S256x64x64_S256x64x1x64_0_1_3 : (⟨S256x64x64, .f32⟩ : BufTy).Contents (Elt F) → (⟨S256x64x1x64, .f32⟩ : BufTy).Contents (Elt F)),
    unary main_v14 main_v16 (broadcastInDim S256x64x64x64 ![0, 1, 2, 3] bcast_S256x64x64x1_S256x64x64x64_0_1_2_3 : (⟨S256x64x64x1, .f32⟩ : BufTy).Contents (Elt F) → (⟨S256x64x64x64, .f32⟩ : BufTy).Contents (Elt F)),
    unary main_v15 main_v17 (broadcastInDim S256x64x64x64 ![0, 1, 2, 3] bcast_S256x64x1x64_S256x64x64x64_0_1_2_3 : (⟨S256x64x1x64, .f32⟩ : BufTy).Contents (Elt F) → (⟨S256x64x64x64, .f32⟩ : BufTy).Contents (Elt F)),
    binary main_v16 main_v17 main_v18 (subf : (⟨S256x64x64x64, .f32⟩ : BufTy).Contents (Elt F) → (⟨S256x64x64x64, .f32⟩ : BufTy).Contents (Elt F) → (⟨S256x64x64x64, .f32⟩ : BufTy).Contents (Elt F)),
    unary main_v0 main_v19 (broadcastInDim S256x64x1x1 ![0, 1] bcast_S256x64_S256x64x1x1_0_1 : (⟨S256x64, .f32⟩ : BufTy).Contents (Elt F) → (⟨S256x64x1x1, .f32⟩ : BufTy).Contents (Elt F)),
    unary main_v0 main_v20 (broadcastInDim S256x1x64x1 ![0, 2] bcast_S256x64_S256x1x64x1_0_2 : (⟨S256x64, .f32⟩ : BufTy).Contents (Elt F) → (⟨S256x1x64x1, .f32⟩ : BufTy).Contents (Elt F)),
    unary main_v19 main_v21 (broadcastInDim S256x64x64x1 ![0, 1, 2, 3] bcast_S256x64x1x1_S256x64x64x1_0_1_2_3 : (⟨S256x64x1x1, .f32⟩ : BufTy).Contents (Elt F) → (⟨S256x64x64x1, .f32⟩ : BufTy).Contents (Elt F)),
    unary main_v20 main_v22 (broadcastInDim S256x64x64x1 ![0, 1, 2, 3] bcast_S256x1x64x1_S256x64x64x1_0_1_2_3 : (⟨S256x1x64x1, .f32⟩ : BufTy).Contents (Elt F) → (⟨S256x64x64x1, .f32⟩ : BufTy).Contents (Elt F)),
    binary main_v21 main_v22 main_v23 (mulf : (⟨S256x64x64x1, .f32⟩ : BufTy).Contents (Elt F) → (⟨S256x64x64x1, .f32⟩ : BufTy).Contents (Elt F) → (⟨S256x64x64x1, .f32⟩ : BufTy).Contents (Elt F)),
    unary main_v0 main_v24 (broadcastInDim S256x1x1x64 ![0, 3] bcast_S256x64_S256x1x1x64_0_3 : (⟨S256x64, .f32⟩ : BufTy).Contents (Elt F) → (⟨S256x1x1x64, .f32⟩ : BufTy).Contents (Elt F)),
    unary main_v23 main_v25 (broadcastInDim S256x64x64x64 ![0, 1, 2, 3] bcast_S256x64x64x1_S256x64x64x64_0_1_2_3 : (⟨S256x64x64x1, .f32⟩ : BufTy).Contents (Elt F) → (⟨S256x64x64x64, .f32⟩ : BufTy).Contents (Elt F)),
    unary main_v24 main_v26 (broadcastInDim S256x64x64x64 ![0, 1, 2, 3] bcast_S256x1x1x64_S256x64x64x64_0_1_2_3 : (⟨S256x1x1x64, .f32⟩ : BufTy).Contents (Elt F) → (⟨S256x64x64x64, .f32⟩ : BufTy).Contents (Elt F)),
    binary main_v25 main_v26 main_v27 (mulf : (⟨S256x64x64x64, .f32⟩ : BufTy).Contents (Elt F) → (⟨S256x64x64x64, .f32⟩ : BufTy).Contents (Elt F) → (⟨S256x64x64x64, .f32⟩ : BufTy).Contents (Elt F)),
    unary main_cst main_v28 (broadcastInDim S1x64x64x1 ![1, 2] bcast_S64x64_S1x64x64x1_1_2 : (⟨S64x64, .f32⟩ : BufTy).Contents (Elt F) → (⟨S1x64x64x1, .f32⟩ : BufTy).Contents (Elt F)),
    unary main_v28 main_v29 (broadcastInDim S256x64x64x64 ![0, 1, 2, 3] bcast_S1x64x64x1_S256x64x64x64_0_1_2_3 : (⟨S1x64x64x1, .f32⟩ : BufTy).Contents (Elt F) → (⟨S256x64x64x64, .f32⟩ : BufTy).Contents (Elt F)),
    binary main_v27 main_v29 main_v30 (mulf : (⟨S256x64x64x64, .f32⟩ : BufTy).Contents (Elt F) → (⟨S256x64x64x64, .f32⟩ : BufTy).Contents (Elt F) → (⟨S256x64x64x64, .f32⟩ : BufTy).Contents (Elt F)),
    nullary main_cst_4 (constant S_ .f32 0x3F800000#32),
    unary main_cst_4 main_v31 (broadcastInDim S64x64 ![] bcast_S_S64x64 : (⟨S_, .f32⟩ : BufTy).Contents (Elt F) → (⟨S64x64, .f32⟩ : BufTy).Contents (Elt F)),
    binary main_v31 main_cst main_v32 (subf : (⟨S64x64, .f32⟩ : BufTy).Contents (Elt F) → (⟨S64x64, .f32⟩ : BufTy).Contents (Elt F) → (⟨S64x64, .f32⟩ : BufTy).Contents (Elt F)),
    unary main_v32 main_v33 (broadcastInDim S1x64x1x64 ![1, 3] bcast_S64x64_S1x64x1x64_1_3 : (⟨S64x64, .f32⟩ : BufTy).Contents (Elt F) → (⟨S1x64x1x64, .f32⟩ : BufTy).Contents (Elt F)),
    unary main_v33 main_v34 (broadcastInDim S256x64x64x64 ![0, 1, 2, 3] bcast_S1x64x1x64_S256x64x64x64_0_1_2_3 : (⟨S1x64x1x64, .f32⟩ : BufTy).Contents (Elt F) → (⟨S256x64x64x64, .f32⟩ : BufTy).Contents (Elt F)),
    binary main_v30 main_v34 main_v35 (mulf : (⟨S256x64x64x64, .f32⟩ : BufTy).Contents (Elt F) → (⟨S256x64x64x64, .f32⟩ : BufTy).Contents (Elt F) → (⟨S256x64x64x64, .f32⟩ : BufTy).Contents (Elt F)),
    TRef.nullary main_call1.cst (constant S_ .f32 0x00000000#32),
    TRef.unary main_call1.cst main_call1.v0 (broadcastInDim S256x64x64x64 ![] bcast_S_S256x64x64x64),
    TRef.binary (.of main_v18 : TRef sig ⟨S256x64x64x64, .f32⟩) main_call1.v0 main_call1.v1 maximumf,
    binary main_v36 main_v35 main_v37 (mulf : (⟨S256x64x64x64, .f32⟩ : BufTy).Contents (Elt F) → (⟨S256x64x64x64, .f32⟩ : BufTy).Contents (Elt F) → (⟨S256x64x64x64, .f32⟩ : BufTy).Contents (Elt F)),
    nullary main_cst_5 (constant S_ .f32 0x00000000#32),
    binary main_v37 main_cst_5 main_v38 ((fun x v => Host.reduceAdd x v reducesTo_S256x64x64x64_S_d0_1_2_3 h_S_) : (⟨S256x64x64x64, .f32⟩ : BufTy).Contents (Elt F) → (⟨S_, .f32⟩ : BufTy).Contents (Elt F) → (⟨S_, .f32⟩ : BufTy).Contents (Elt F)),
    nullary main_cst_6 (constant S_ .f32 0x00000000#32),
    binary main_v35 main_cst_6 main_v39 ((fun x v => Host.reduceAdd x v reducesTo_S256x64x64x64_S_d0_1_2_3 h_S_) : (⟨S256x64x64x64, .f32⟩ : BufTy).Contents (Elt F) → (⟨S_, .f32⟩ : BufTy).Contents (Elt F) → (⟨S_, .f32⟩ : BufTy).Contents (Elt F)),
    nullary main_cst_7 (constant S_ .f32 0x00000000#32),
    binary main_v39 main_cst_7 main_v40 (cmpf .ogt : (⟨S_, .f32⟩ : BufTy).Contents (Elt F) → (⟨S_, .f32⟩ : BufTy).Contents (Elt F) → (⟨S_, .i1⟩ : BufTy).Contents (Elt F)),
    nullary main_cst_8 (constant S_ .f32 0x3F800000#32),
    binary main_v39 main_cst_8 main_v41 (maximumf : (⟨S_, .f32⟩ : BufTy).Contents (Elt F) → (⟨S_, .f32⟩ : BufTy).Contents (Elt F) → (⟨S_, .f32⟩ : BufTy).Contents (Elt F)),
    binary main_v38 main_v41 main_v42 (Host.divf : (⟨S_, .f32⟩ : BufTy).Contents (Elt F) → (⟨S_, .f32⟩ : BufTy).Contents (Elt F) → (⟨S_, .f32⟩ : BufTy).Contents (Elt F)),
    TRef.ternary (.of main_v40 : TRef sig ⟨S_, .i1⟩) (.of main_v42 : TRef sig ⟨S_, .f32⟩) (.of main_v38 : TRef sig ⟨S_, .f32⟩) main_call2.v0 select ]

set_option maxRecDepth 1024 in
/-- The program is that straight line: the three functions unfolded at their calls, sequencing reassociated. -/
theorem main_eq (c : Dev nD) : main (F := F) c = seq ops := by
  simp only [main, fn_norm.body, fn_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., unary_bufs_sub .., binary_bufs_sub .., unary_bufs_sub ..,
    unary_bufs_sub .., unary_bufs_sub .., unary_bufs_sub .., binary_bufs_sub .., unary_bufs_sub .., unary_bufs_sub ..,
    unary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., binary_bufs_sub .., nullary_bufs_sub .., binary_bufs_sub .., nullary_bufs_sub .., binary_bufs_sub ..,
    nullary_bufs_sub .., binary_bufs_sub .., nullary_bufs_sub .., binary_bufs_sub .., binary_bufs_sub .., ternary_bufs_sub ..⟩

attribute [local irreducible] Host.reduceAdd Host.sqrt Host.divf broadcastInDim Shape.rowMajor in
set_option maxRecDepth 8192 in
set_option maxHeartbeats 400000 in
/-- The fold of the sixty operations, read at the result buffer, is `resultTerm` of the two arguments' contents: each
    operation's result decides by computation whether the buffer read is the one it writes, so the fold unrolls to the
    operations composed in order, which is how `resultTerm` and its six stages are written. The reductions, the
    batched product, the root, the division, the broadcasts and the two tables stay closed meanwhile. -/
theorem out_eq (V : Valuation τ sig (Elt F)) :
    after ops V (main_v43 : DevRef τ sig)
      = resultTerm (V (main_arg0 : DevRef τ sig)) (V (main_arg1 : DevRef τ sig)) := by
  simp only [after_cons, after_nil]
  rfl

/-- No operation writes the first argument. -/
theorem arg0_eq (V : Valuation τ sig (Elt F)) :
    after ops V (main_arg0 : DevRef τ sig) = V (main_arg0 : DevRef τ sig) := by
  simp only [after_cons, after_nil]
  rfl

/-- No operation writes the second argument. -/
theorem arg1_eq (V : Valuation τ sig (Elt F)) :
    after ops V (main_arg1 : DevRef τ sig) = V (main_arg1 : DevRef τ sig) := by
  simp only [after_cons, after_nil]
  rfl

/-- From any memory with zero counters every weakly fair execution of the program terminates, and every buffer ends
    at the fold of the operations over what the launch put there. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- From any memory with zero counters every weakly fair execution of the program terminates with the result buffer
    at `resultTerm` of the two arguments as launched, and the two arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = resultTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v43).trans (out_eq _), (h c main_arg0).trans (arg0_eq _),
      (h c main_arg1).trans (arg1_eq _)⟩) (run_all m ρ)

end Cert.ReferenceIdeal.RefValue

end
-- ==== Proof.RefRead.lean ====
/-
  The reference program's value, read index by index.

  The program's result term is a composition of elementwise operations, broadcasts along named axes, one sum along the
  last axis, one batched product of rows, and two sums over every axis. Read at an index each broadcast copies the
  entry at the coordinates its axis map names, the row sum is the sum over the last coordinate, and the batched product
  is the sum over the contracted coordinate of the products of the two rows' entries. So the array of distances is the
  cosine distance of two unit rows, the array of hinge arguments and the array of masks are the triplet's hinge argument
  and its left-to-right mask, and the two totals are the sums over every triplet that the specification names.
-/
import proofs.«154496_j7928509628770_2_alg».proof.Proof.RefTerm
import proofs.«154496_j7928509628770_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.ShloMosaic.ValueIdx Idealize.SL.Sem

/-! ## Broadcasts read at an index

Each copies the operand's entry at the coordinates its axis map names; an operand axis of extent one is read at 0. -/

/-- A scalar broadcast to any shape reads the scalar's one entry. -/
theorem bcScalar_apply {t : Shape} (h : S_.BroadcastsInDim t (![] : Fin 0 → Fin t.rank)) (x : FVec Ideal S_ .f32) (j : t.Idx) :
    broadcastInDim t ![] h x j = x ix0 :=
  broadcastInDim_apply _ h x j ix0 (fun ax => ax.elim0)

/-- [256, 64] into [256, 64, 1] along the axes 0, 1. -/
theorem bc_S256x64_S256x64x1_apply (x : FVec Ideal S256x64 .f32) (t0 : Fin 256) (t1 : Fin 64) (t2 : Fin 1) :
    broadcastInDim S256x64x1 ![0, 1] bcast_S256x64_S256x64x1_0_1 x (ix3 t0 t1 t2) = x (ix2 t0 t1) :=
  broadcastInDim_apply _ _ x _ (ix2 t0 t1) (fun ax => by
    match ax with
    | ⟨0, _⟩ => rfl
    | ⟨1, _⟩ => rfl)

/-- [256, 64, 1] into [256, 64, 1024] along the axes 0, 1, 2. -/
theorem bc_S256x64x1_S256x64x1024_apply (x : FVec Ideal S256x64x1 .f32) (t0 : Fin 256) (t1 : Fin 64) (t2 : Fin 1024) :
    broadcastInDim S256x64x1024 ![0, 1, 2] bcast_S256x64x1_S256x64x1024_0_1_2 x (ix3 t0 t1 t2) = x (ix3 t0 t1 (0 : Fin 1)) :=
  broadcastInDim_apply _ _ x _ (ix3 t0 t1 (0 : Fin 1)) (fun ax => by
    match ax with
    | ⟨0, _⟩ => rfl
    | ⟨1, _⟩ => rfl
    | ⟨2, _⟩ => rfl)

/-- [64, 64] into [1, 64, 64] along the axes 1, 2. -/
theorem bc_S64x64_S1x64x64_apply (x : FVec Ideal S64x64 .f32) (t0 : Fin 1) (t1 : Fin 64) (t2 : Fin 64) :
    broadcastInDim S1x64x64 ![1, 2] bcast_S64x64_S1x64x64_1_2 x (ix3 t0 t1 t2) = x (ix2 t1 t2) :=
  broadcastInDim_apply _ _ x _ (ix2 t1 t2) (fun ax => by
    match ax with
    | ⟨0, _⟩ => rfl
    | ⟨1, _⟩ => rfl)

/-- [1, 64, 64] into [256, 64, 64] along the axes 0, 1, 2. -/
theorem bc_S1x64x64_S256x64x64_apply (x : FVec Ideal S1x64x64 .f32) (t0 : Fin 256) (t1 : Fin 64) (t2 : Fin 64) :
    broadcastInDim S256x64x64 ![0, 1, 2] bcast_S1x64x64_S256x64x64_0_1_2 x (ix3 t0 t1 t2) = x (ix3 (0 : Fin 1) t1 t2) :=
  broadcastInDim_apply _ _ x _ (ix3 (0 : Fin 1) t1 t2) (fun ax => by
    match ax with
    | ⟨0, _⟩ => rfl
    | ⟨1, _⟩ => rfl
    | ⟨2, _⟩ => rfl)

/-- [256, 64, 64] into [256, 64, 64, 1] along the axes 0, 1, 2. -/
theorem bc_S256x64x64_S256x64x64x1_apply (x : FVec Ideal S256x64x64 .f32) (t0 : Fin 256) (t1 : Fin 64) (t2 : Fin 64) (t3 : Fin 1) :
    broadcastInDim S256x64x64x1 ![0, 1, 2] bcast_S256x64x64_S256x64x64x1_0_1_2 x (ix4 t0 t1 t2 t3) = x (ix3 t0 t1 t2) :=
  broadcastInDim_apply _ _ x _ (ix3 t0 t1 t2) (fun ax => by
    match ax with
    | ⟨0, _⟩ => rfl
    | ⟨1, _⟩ => rfl
    | ⟨2, _⟩ => rfl)

/-- [256, 64, 64] into [256, 64, 1, 64] along the axes 0, 1, 3. -/
theorem bc_S256x64x64_S256x64x1x64_apply (x : FVec Ideal S256x64x64 .f32) (t0 : Fin 256) (t1 : Fin 64) (t2 : Fin 1) (t3 : Fin 64) :
    broadcastInDim S256x64x1x64 ![0, 1, 3] bcast_S256x64x64_S256x64x1x64_0_1_3 x (ix4 t0 t1 t2 t3) = x (ix3 t0 t1 t3) :=
  broadcastInDim_apply _ _ x _ (ix3 t0 t1 t3) (fun ax => by
    match ax with
    | ⟨0, _⟩ => rfl
    | ⟨1, _⟩ => rfl
    | ⟨2, _⟩ => rfl)

/-- [256, 64, 64, 1] into [256, 64, 64, 64] along the axes 0, 1, 2, 3. -/
theorem bc_S256x64x64x1_S256x64x64x64_apply (x : FVec Ideal S256x64x64x1 .f32) (t0 : Fin 256) (t1 : Fin 64) (t2 : Fin 64) (t3 : Fin 64) :
    broadcastInDim S256x64x64x64 ![0, 1, 2, 3] bcast_S256x64x64x1_S256x64x64x64_0_1_2_3 x (ix4 t0 t1 t2 t3) = x (ix4 t0 t1 t2 (0 : Fin 1)) :=
  broadcastInDim_apply _ _ x _ (ix4 t0 t1 t2 (0 : Fin 1)) (fun ax => by
    match ax with
    | ⟨0, _⟩ => rfl
    | ⟨1, _⟩ => rfl
    | ⟨2, _⟩ => rfl
    | ⟨3, _⟩ => rfl)

/-- [256, 64, 1, 64] into [256, 64, 64, 64] along the axes 0, 1, 2, 3. -/
theorem bc_S256x64x1x64_S256x64x64x64_apply (x : FVec Ideal S256x64x1x64 .f32) (t0 : Fin 256) (t1 : Fin 64) (t2 : Fin 64) (t3 : Fin 64) :
    broadcastInDim S256x64x64x64 ![0, 1, 2, 3] bcast_S256x64x1x64_S256x64x64x64_0_1_2_3 x (ix4 t0 t1 t2 t3) = x (ix4 t0 t1 (0 : Fin 1) t3) :=
  broadcastInDim_apply _ _ x _ (ix4 t0 t1 (0 : Fin 1) t3) (fun ax => by
    match ax with
    | ⟨0, _⟩ => rfl
    | ⟨1, _⟩ => rfl
    | ⟨2, _⟩ => rfl
    | ⟨3, _⟩ => rfl)

/-- [256, 64] into [256, 64, 1, 1] along the axes 0, 1. -/
theorem bc_S256x64_S256x64x1x1_apply (x : FVec Ideal S256x64 .f32) (t0 : Fin 256) (t1 : Fin 64) (t2 : Fin 1) (t3 : Fin 1) :
    broadcastInDim S256x64x1x1 ![0, 1] bcast_S256x64_S256x64x1x1_0_1 x (ix4 t0 t1 t2 t3) = x (ix2 t0 t1) :=
  broadcastInDim_apply _ _ x _ (ix2 t0 t1) (fun ax => by
    match ax with
    | ⟨0, _⟩ => rfl
    | ⟨1, _⟩ => rfl)

/-- [256, 64] into [256, 1, 64, 1] along the axes 0, 2. -/
theorem bc_S256x64_S256x1x64x1_apply (x : FVec Ideal S256x64 .f32) (t0 : Fin 256) (t1 : Fin 1) (t2 : Fin 64) (t3 : Fin 1) :
    broadcastInDim S256x1x64x1 ![0, 2] bcast_S256x64_S256x1x64x1_0_2 x (ix4 t0 t1 t2 t3) = x (ix2 t0 t2) :=
  broadcastInDim_apply _ _ x _ (ix2 t0 t2) (fun ax => by
    match ax with
    | ⟨0, _⟩ => rfl
    | ⟨1, _⟩ => rfl)

/-- [256, 64, 1, 1] into [256, 64, 64, 1] along the axes 0, 1, 2, 3. -/
theorem bc_S256x64x1x1_S256x64x64x1_apply (x : FVec Ideal S256x64x1x1 .f32) (t0 : Fin 256) (t1 : Fin 64) (t2 : Fin 64) (t3 : Fin 1) :
    broadcastInDim S256x64x64x1 ![0, 1, 2, 3] bcast_S256x64x1x1_S256x64x64x1_0_1_2_3 x (ix4 t0 t1 t2 t3) = x (ix4 t0 t1 (0 : Fin 1) (0 : Fin 1)) :=
  broadcastInDim_apply _ _ x _ (ix4 t0 t1 (0 : Fin 1) (0 : Fin 1)) (fun ax => by
    match ax with
    | ⟨0, _⟩ => rfl
    | ⟨1, _⟩ => rfl
    | ⟨2, _⟩ => rfl
    | ⟨3, _⟩ => rfl)

/-- [256, 1, 64, 1] into [256, 64, 64, 1] along the axes 0, 1, 2, 3. -/
theorem bc_S256x1x64x1_S256x64x64x1_apply (x : FVec Ideal S256x1x64x1 .f32) (t0 : Fin 256) (t1 : Fin 64) (t2 : Fin 64) (t3 : Fin 1) :
    broadcastInDim S256x64x64x1 ![0, 1, 2, 3] bcast_S256x1x64x1_S256x64x64x1_0_1_2_3 x (ix4 t0 t1 t2 t3) = x (ix4 t0 (0 : Fin 1) t2 (0 : Fin 1)) :=
  broadcastInDim_apply _ _ x _ (ix4 t0 (0 : Fin 1) t2 (0 : Fin 1)) (fun ax => by
    match ax with
    | ⟨0, _⟩ => rfl
    | ⟨1, _⟩ => rfl
    | ⟨2, _⟩ => rfl
    | ⟨3, _⟩ => rfl)

/-- [256, 64] into [256, 1, 1, 64] along the axes 0, 3. -/
theorem bc_S256x64_S256x1x1x64_apply (x : FVec Ideal S256x64 .f32) (t0 : Fin 256) (t1 : Fin 1) (t2 : Fin 1) (t3 : Fin 64) :
    broadcastInDim S256x1x1x64 ![0, 3] bcast_S256x64_S256x1x1x64_0_3 x (ix4 t0 t1 t2 t3) = x (ix2 t0 t3) :=
  broadcastInDim_apply _ _ x _ (ix2 t0 t3) (fun ax => by
    match ax with
    | ⟨0, _⟩ => rfl
    | ⟨1, _⟩ => rfl)

/-- [256, 1, 1, 64] into [256, 64, 64, 64] along the axes 0, 1, 2, 3. -/
theorem bc_S256x1x1x64_S256x64x64x64_apply (x : FVec Ideal S256x1x1x64 .f32) (t0 : Fin 256) (t1 : Fin 64) (t2 : Fin 64) (t3 : Fin 64) :
    broadcastInDim S256x64x64x64 ![0, 1, 2, 3] bcast_S256x1x1x64_S256x64x64x64_0_1_2_3 x (ix4 t0 t1 t2 t3) = x (ix4 t0 (0 : Fin 1) (0 : Fin 1) t3) :=
  broadcastInDim_apply _ _ x _ (ix4 t0 (0 : Fin 1) (0 : Fin 1) t3) (fun ax => by
    match ax with
    | ⟨0, _⟩ => rfl
    | ⟨1, _⟩ => rfl
    | ⟨2, _⟩ => rfl
    | ⟨3, _⟩ => rfl)

/-- [64, 64] into [1, 64, 64, 1] along the axes 1, 2. -/
theorem bc_S64x64_S1x64x64x1_apply (x : FVec Ideal S64x64 .f32) (t0 : Fin 1) (t1 : Fin 64) (t2 : Fin 64) (t3 : Fin 1) :
    broadcastInDim S1x64x64x1 ![1, 2] bcast_S64x64_S1x64x64x1_1_2 x (ix4 t0 t1 t2 t3) = x (ix2 t1 t2) :=
  broadcastInDim_apply _ _ x _ (ix2 t1 t2) (fun ax => by
    match ax with
    | ⟨0, _⟩ => rfl
    | ⟨1, _⟩ => rfl)

/-- [1, 64, 64, 1] into [256, 64, 64, 64] along the axes 0, 1, 2, 3. -/
theorem bc_S1x64x64x1_S256x64x64x64_apply (x : FVec Ideal S1x64x64x1 .f32) (t0 : Fin 256) (t1 : Fin 64) (t2 : Fin 64) (t3 : Fin 64) :
    broadcastInDim S256x64x64x64 ![0, 1, 2, 3] bcast_S1x64x64x1_S256x64x64x64_0_1_2_3 x (ix4 t0 t1 t2 t3) = x (ix4 (0 : Fin 1) t1 t2 (0 : Fin 1)) :=
  broadcastInDim_apply _ _ x _ (ix4 (0 : Fin 1) t1 t2 (0 : Fin 1)) (fun ax => by
    match ax with
    | ⟨0, _⟩ => rfl
    | ⟨1, _⟩ => rfl
    | ⟨2, _⟩ => rfl
    | ⟨3, _⟩ => rfl)

/-- [64, 64] into [1, 64, 1, 64] along the axes 1, 3. -/
theorem bc_S64x64_S1x64x1x64_apply (x : FVec Ideal S64x64 .f32) (t0 : Fin 1) (t1 : Fin 64) (t2 : Fin 1) (t3 : Fin 64) :
    broadcastInDim S1x64x1x64 ![1, 3] bcast_S64x64_S1x64x1x64_1_3 x (ix4 t0 t1 t2 t3) = x (ix2 t1 t3) :=
  broadcastInDim_apply _ _ x _ (ix2 t1 t3) (fun ax => by
    match ax with
    | ⟨0, _⟩ => rfl
    | ⟨1, _⟩ => rfl)

/-- [1, 64, 1, 64] into [256, 64, 64, 64] along the axes 0, 1, 2, 3. -/
theorem bc_S1x64x1x64_S256x64x64x64_apply (x : FVec Ideal S1x64x1x64 .f32) (t0 : Fin 256) (t1 : Fin 64) (t2 : Fin 64) (t3 : Fin 64) :
    broadcastInDim S256x64x64x64 ![0, 1, 2, 3] bcast_S1x64x1x64_S256x64x64x64_0_1_2_3 x (ix4 t0 t1 t2 t3) = x (ix4 (0 : Fin 1) t1 (0 : Fin 1) t3) :=
  broadcastInDim_apply _ _ x _ (ix4 (0 : Fin 1) t1 (0 : Fin 1) t3) (fun ax => by
    match ax with
    | ⟨0, _⟩ => rfl
    | ⟨1, _⟩ => rfl
    | ⟨2, _⟩ => rfl
    | ⟨3, _⟩ => rfl)

/-! ## The hinge arguments -/

/-- The hinge argument of a triplet: D[b,a,p] - (D[b,a,n] - 1 · ld[a,n]). -/
theorem argTerm_apply (v8 : FVec Ideal S256x64x64 .f32) (cst_0 : FVec Ideal S64x64 .f32) (b : Fin 256) (a p n : Fin 64) :
    argTerm (F := Ideal) v8 cst_0 (ix4 b a p n)
      = v8 (ix3 b a p) - (v8 (ix3 b a n) - Cert.TripletSpec.one * cst_0 (ix2 a n)) := by
  unfold argTerm
  dsimp only
  rw [subf_apply, bc_S256x64x64x1_S256x64x64x64_apply, bc_S256x64x64_S256x64x64x1_apply,
    bc_S256x64x1x64_S256x64x64x64_apply, bc_S256x64x64_S256x64x1x64_apply, subf_apply,
    bc_S1x64x64_S256x64x64_apply, mulf_apply, bcScalar_apply, bc_S64x64_S1x64x64_apply, constant_apply]

/-! ## The masks -/

/-- The mask of a triplet, its five factors multiplied left to right. -/
theorem maskTerm_apply (v0 : FVec Ideal S256x64 .f32) (cst : FVec Ideal S64x64 .f32) (b : Fin 256) (a p n : Fin 64) :
    maskTerm (F := Ideal) v0 cst (ix4 b a p n)
      = (((v0 (ix2 b a) * v0 (ix2 b p)) * v0 (ix2 b n)) * cst (ix2 a p)) * (Cert.TripletSpec.one - cst (ix2 a n)) := by
  unfold maskTerm
  dsimp only
  rw [mulf_apply, mulf_apply, mulf_apply, bc_S256x64x64x1_S256x64x64x64_apply, mulf_apply,
    bc_S256x64x1x1_S256x64x64x1_apply, bc_S256x64_S256x64x1x1_apply,
    bc_S256x1x64x1_S256x64x64x1_apply, bc_S256x64_S256x1x64x1_apply,
    bc_S256x1x1x64_S256x64x64x64_apply, bc_S256x64_S256x1x1x64_apply,
    bc_S1x64x64x1_S256x64x64x64_apply, bc_S64x64_S1x64x64x1_apply,
    bc_S1x64x1x64_S256x64x64x64_apply, bc_S64x64_S1x64x1x64_apply, subf_apply, bcScalar_apply, constant_apply]

/-! ## The two totals -/

/-- The loss before the closing step: the sum over every index of the clipped argument times the mask. -/
theorem lossTerm_apply (v18 v35 : FVec Ideal S256x64x64x64 .f32) (j : S_.Idx) :
    lossTerm (F := Ideal) v18 v35 j = ∑ i : S256x64x64x64.Idx, max (v18 i) Cert.TripletSpec.zeroW * v35 i := by
  unfold lossTerm
  dsimp only
  refine (Ideal.hostReduceAdd_total reducesTo_S256x64x64x64_S_d0_1_2_3 (fun b => b.elim0) _ _ j).trans ?_
  rw [constant_apply, Ideal.ofBits_zero_f32, zero_add]
  refine Finset.sum_congr rfl fun i _ => ?_
  rw [mulf_apply, maximumf_apply, bcScalar_apply, constant_apply]

/-- The count before the closing step: the sum of the masks over every index. -/
theorem countTerm_apply (v35 : FVec Ideal S256x64x64x64 .f32) (j : S_.Idx) :
    countTerm (F := Ideal) v35 j = ∑ i : S256x64x64x64.Idx, v35 i := by
  unfold countTerm
  dsimp only
  refine (Ideal.hostReduceAdd_total reducesTo_S256x64x64x64_S_d0_1_2_3 (fun b => b.elim0) _ _ j).trans ?_
  rw [constant_apply, Ideal.ofBits_zero_f32, zero_add]

/-! ## The distances -/

/-- The sum of a [256, 64, 1024] array along its last axis, from the zero word: the sum over the last coordinate. -/
theorem rowSum_apply (x : FVec Ideal S256x64x1024 .f32) (b : Fin 256) (l : Fin 64) :
    Host.reduceAdd (F := Ideal) x (constant (F := Ideal) S_ .f32 0x00000000#32) reducesTo_S256x64x1024_S256x64_d2 h_S_ (ix2 b l)
      = ∑ k : Fin 1024, x (ix3 b l k) := by
  have hr : S256x64x1024.Reduces [2] S256x64 := by decide
  refine (Ideal.hostReduceAdd_single reducesTo_S256x64x1024_S256x64_d2 hr x _ (ix2 b l)).trans ?_
  rw [constant_apply, Ideal.ofBits_zero_f32, zero_add]
  refine Finset.sum_congr rfl fun k _ => congrArg x (funext fun ax => Fin.ext ?_)
  match ax with
  | ⟨0, _⟩ => rfl
  | ⟨1, _⟩ => rfl
  | ⟨2, _⟩ => rfl

/-- The batched product of two [256, 64, 1024] arrays, batch axis 0, both contracted along the last axis: at (b, l, m)
    the sum over the contracted coordinate of the products of row l of the first and row m of the second. -/
theorem rowDot_apply (u w : FVec Ideal S256x64x1024 .f32) (b : Fin 256) (l m : Fin 64) :
    Host.dotGeneral (F := Ideal) dot_S256x64x1024_S256x64x1024_S256x64x64_2_2_1_1_0_0 none u w (ix3 b l m)
      = ∑ k : Fin 1024, u (ix3 b l k) * w (ix3 b m k) := by
  show FloatOps.dotGeneral _ none _ u w (ix3 b l m) = _
  rw [Ideal.dotGeneral_apply,
    ← Equiv.sum_comp (contrEquiv1 dot_S256x64x1024_S256x64x1024_S256x64x64_2_2_1_1_0_0 1024 rfl rfl).symm]
  refine Finset.sum_congr rfl fun c _ => ?_
  have c3 := contrEquiv1_symm_val dot_S256x64x1024_S256x64x1024_S256x64x64_2_2_1_1_0_0 1024 rfl rfl c
  have l3 : dot_S256x64x1024_S256x64x1024_S256x64x64_2_2_1_1_0_0.lhsIdx (ix3 b l m)
      ((contrEquiv1 _ 1024 rfl rfl).symm c) = ix3 b l c := by
    funext ax; apply Fin.ext
    match ax with
    | ⟨0, _⟩ => simp [DotDims.lhsIdx, dot_S256x64x1024_S256x64x1024_S256x64x64_2_2_1_1_0_0]; rfl
    | ⟨1, _⟩ => simp [DotDims.lhsIdx, dot_S256x64x1024_S256x64x1024_S256x64x64_2_2_1_1_0_0]; rfl
    | ⟨2, _⟩ => simp [DotDims.lhsIdx, dot_S256x64x1024_S256x64x1024_S256x64x64_2_2_1_1_0_0]; exact c3
  have r3 : dot_S256x64x1024_S256x64x1024_S256x64x64_2_2_1_1_0_0.rhsIdx (ix3 b l m)
      ((contrEquiv1 _ 1024 rfl rfl).symm c) = ix3 b m c := by
    funext ax; apply Fin.ext
    match ax with
    | ⟨0, _⟩ => simp [DotDims.rhsIdx, dot_S256x64x1024_S256x64x1024_S256x64x64_2_2_1_1_0_0]; rfl
    | ⟨1, _⟩ => simp [DotDims.rhsIdx, dot_S256x64x1024_S256x64x1024_S256x64x64_2_2_1_1_0_0]; rfl
    | ⟨2, _⟩ => simp [DotDims.rhsIdx, dot_S256x64x1024_S256x64x1024_S256x64x64_2_2_1_1_0_0]; exact c3
  rw [l3, r3]

/-- The host's division and square root read at an index are the exact quotient and root of the entries. -/
theorem hostDivf_apply {s : Shape} (x y : FVec Ideal s .f32) (i : s.Idx) :
    Host.divf (F := Ideal) x y i = Ideal.div (x i) (y i) := rfl
theorem hostSqrt_apply {s : Shape} (x : FVec Ideal s .f32) (i : s.Idx) :
    Host.sqrt (F := Ideal) x i = Ideal.sqrt (x i) := rfl

/-- A row divided by its floored norm: the entry over max(√(sum of the row's squares), floor). -/
theorem unitTerm_apply (X : FVec Ideal S256x64x1024 .f32) (b : Fin 256) (l : Fin 64) (d : Fin 1024) :
    Host.divf (F := Ideal) X
        (broadcastInDim S256x64x1024 ![0, 1, 2] bcast_S256x64x1_S256x64x1024_0_1_2
          (maximumf
            (Host.sqrt (F := Ideal)
              (broadcastInDim S256x64x1 ![0, 1] bcast_S256x64_S256x64x1_0_1
                (Host.reduceAdd (F := Ideal) (mulf X X) (constant (F := Ideal) S_ .f32 0x00000000#32)
                  reducesTo_S256x64x1024_S256x64_d2 h_S_)))
            (broadcastInDim S256x64x1 ![] bcast_S_S256x64x1 (constant (F := Ideal) S_ .f32 0x2B8CBCCC#32))))
        (ix3 b l d)
      = Cert.TripletSpec.unitRow X b l d := by
  rw [hostDivf_apply, bc_S256x64x1_S256x64x1024_apply, maximumf_apply, hostSqrt_apply, bc_S256x64_S256x64x1_apply,
    rowSum_apply, bcScalar_apply, constant_apply]
  rfl

/-- The array of distances: at (b, l, m) one minus the inner product of the unit rows l and m of batch b. -/
theorem distTerm_apply (X : FVec Ideal S256x64x1024 .f32) (b : Fin 256) (l m : Fin 64) :
    distTerm (F := Ideal) X (ix3 b l m) = Cert.TripletSpec.cosD X b l m := by
  unfold distTerm
  dsimp only
  rw [subf_apply, bcScalar_apply, constant_apply, rowDot_apply]
  unfold Cert.TripletSpec.cosD
  refine congrArg (Cert.TripletSpec.one - ·) (Finset.sum_congr rfl fun k _ => ?_)
  exact congrArg₂ (· * ·) (unitTerm_apply X b l k) (unitTerm_apply X b m k)

/-! ## The result -/

/-- The reference's result is the closing step applied to the specification's loss and count over every triplet. -/
theorem resultTerm_eq (X : FVec Ideal S256x64x1024 .f32) (Lb : IVec S256x64 32) :
    resultTerm (F := Ideal) X Lb
      = Cert.TripletSpec.closing
          (fun _ => Cert.TripletSpec.lossR (Cert.TripletSpec.cosD X) (fun a n => ldTable (F := Ideal) (ix2 a n))
            (fun b l => (sitofp (F := Ideal) .f32 Lb : FVec Ideal S256x64 .f32) (ix2 b l)) (fun a p => ancTable (F := Ideal) (ix2 a p)))
          (fun _ => Cert.TripletSpec.countR (fun b l => (sitofp (F := Ideal) .f32 Lb : FVec Ideal S256x64 .f32) (ix2 b l))
            (fun a p => ancTable (F := Ideal) (ix2 a p))) := by
  unfold resultTerm
  dsimp only
  show Cert.TripletSpec.closing (lossTerm (F := Ideal) _ _) (countTerm (F := Ideal) _) = _
  refine congrArg₂ Cert.TripletSpec.closing ?_ ?_
  · funext j
    rw [lossTerm_apply]
    unfold Cert.TripletSpec.lossR
    refine Finset.sum_congr rfl fun i _ => ?_
    obtain ⟨b, a, p, n, rfl⟩ : ∃ b a p n, i = ix4 b a p n := ⟨i 0, i 1, i 2, i 3, eq_ix4 i⟩
    rw [argTerm_apply, maskTerm_apply, distTerm_apply, distTerm_apply]
    rfl
  · funext j
    rw [countTerm_apply]
    unfold Cert.TripletSpec.countR
    refine Finset.sum_congr rfl fun i _ => ?_
    obtain ⟨b, a, p, n, rfl⟩ : ∃ b a p n, i = ix4 b a p n := ⟨i 0, i 1, i 2, i 3, eq_ix4 i⟩
    rw [maskTerm_apply]
    rfl

end Cert.ReferenceIdeal.RefValue

end
-- ==== Proof.DistRegion.lean ====
/-
  The cosine-distance region, read as one array.

  The region runs over 16 grid points; point t reads block t of the features — 16 batch rows of the [256, 64, 1024] array —
  and writes block t of the [256, 64, 64] output. In a block every row X[p, l, :] is divided by the larger of its
  Euclidean norm (the square root of its sum of squares) and a small positive floor, and entry (p, l, m) of the result is
  1 minus the sum over the last coordinate of the products of unit rows l and m of batch row p: the batched product of the
  unit rows with themselves, whose batch coordinate is the output's first coordinate and whose contracted coordinate is
  the last of both operands. A change of float format is the identity on extended reals. Block t of the output depends
  only on block t of the input, at the same coordinates, and the 16 blocks tile the output array, so after the region the
  array holds at every (b, l, m) the cosine distance of rows l and m of batch row b.

  The file goes in that order: the lane sum, the unit-axis cast and the broadcast read at coordinates; the batched product
  at an index; one block's result at an index; what a point writes back as a slice of one whole-array function; the cover;
  the array.
-/
import proofs.«154496_j7928509628770_2_alg».proof.Proof.Gen.KernelIdeal.Frame
import proofs.«154496_j7928509628770_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem

/-! ## One block: the payload at an index -/

/-- The floored norm of row (p, l) of a block: max(√(Σ_k x[p,l,k]²), floor). -/
def dist_norm (x : Vec Ideal S16x64x1024 .f32) (p : Fin 16) (l : Fin 64) : EReal :=
  max (Ideal.sqrt (∑ k : Fin 1024, x (ix3 p l k) * x (ix3 p l k))) Cert.TripletSpec.normFloor

/-- The unit row of a block: x[p,l,d] divided by the floored norm of its row. -/
def dist_unit (x : Vec Ideal S16x64x1024 .f32) (p : Fin 16) (l : Fin 64) (d : Fin 1024) : EReal :=
  Ideal.div (x (ix3 p l d)) (dist_norm x p l)

/-- The sum of a [16,64,1024] array along its last axis, read at (p, l). -/
theorem dist_laneSum (v : FVec Ideal S16x64x1024 .f32) (h : S16x64x1024.Reduces [2] S16x64) (hφ : FKind.Formats .f32)
    (hacc : (0x00000000#32 : BitVec 32) = 0x00000000#32) (p : Fin 16) (l : Fin 64) :
    multiReduction (F := Ideal) .add [2] S16x64 v 0x00000000#32 h hφ hacc (ix2 p l) = ∑ k : Fin 1024, v (ix3 p l k) := by
  refine (Ideal.multiReduction_add_single v 0x00000000#32 h hφ hacc (ix2 p l)).trans ?_
  refine Finset.sum_congr rfl fun k _ => congrArg v ?_
  funext a; apply Fin.ext
  match a with
  | ⟨0, _⟩ => rfl
  | ⟨1, _⟩ => rfl
  | ⟨2, _⟩ => rfl

/-- A [16,64] array viewed as [16,64,1] reads (p, l) at (p, l, u). -/
theorem dist_keepdims (v : FVec Ideal S16x64 .f32) (h : S16x64.ShapeCasts S16x64x1) (p : Fin 16) (l : Fin 64) (u : Fin 1) :
    shapeCast S16x64x1 v h (ix3 p l u) = v (ix2 p l) :=
  shapeCast_apply v h _ _ (by
    have hu : u.val = 0 := by omega
    rw [Shape.rowMajor_val_three, Shape.rowMajor_val_two]
    show p.val * 64 + l.val = (p.val * 64 + l.val) * 1 + u.val
    rw [hu, Nat.mul_one, Nat.add_zero])

/-- A [16,64,1] array spread along a last axis of 1024 reads (p, l, 0) at (p, l, k). -/
theorem dist_spread (v : FVec Ideal S16x64x1 .f32) (h : S16x64x1.Broadcasts S16x64x1024) (p : Fin 16) (l : Fin 64) (k : Fin 1024) :
    broadcastTo S16x64x1024 v h (ix3 p l k) = v (ix3 p l (0 : Fin 1)) := by
  refine broadcastTo_apply v h (ix3 p l k) (ix3 p l (0 : Fin 1)) fun ax => ?_
  match ax with
  | ⟨0, _⟩ => rfl
  | ⟨1, _⟩ => rfl
  | ⟨2, _⟩ => rfl

/-- The kernel's array of floored row norms, spread along the last axis. -/
def dist_normArr (x0 : Vec Ideal S16x64x1024 .f32) : FVec Ideal S16x64x1024 .f32 :=
  broadcastTo S16x64x1024
    (maximumf (sqrt (shapeCast S16x64x1
        (multiReduction .add [2] S16x64 (mulf x0 x0) 0x00000000#32 Facts₀.reduces_S16x64x1024_S16x64 (.inl rfl) rfl)
        Facts₀.shapeCasts_S16x64_S16x64x1))
      (broadcast S16x64x1 (Scalar.ofBits .f32 0x2B8CBCCC#32)))
    Facts₀.broadcasts_S16x64x1_S16x64x1024

/-- The kernel's array of unit rows (the narrowing to bf16 is the identity on ideal values). -/
def dist_unitArr (x0 : Vec Ideal S16x64x1024 .f32) : FVec Ideal S16x64x1024 .bf16 :=
  truncf .bf16 (divf x0 (dist_normArr x0)) Facts₀.bitsLt_bf16_f32

/-- The payload is 1 minus the batched product of the unit rows with themselves. -/
theorem pay0_eq (x0 : Vec Ideal S16x64x1024 .f32) :
    k0_pay1 (F := Ideal) x0
      = subf (broadcast S16x64x64 (Scalar.ofBits .f32 0x3F800000#32))
          (matmul dot_S16x64x1024_S16x64x1024_S16x64x64_2_2_1_1_0_0 none (dist_unitArr x0) (dist_unitArr x0)
            (constant S16x64x64 .f32 0x00000000#32)) := rfl

/-- The array of norms at (p, l, k) is the floored norm of row (p, l). -/
theorem dist_normArr_apply (x0 : Vec Ideal S16x64x1024 .f32) (p : Fin 16) (l : Fin 64) (k : Fin 1024) :
    dist_normArr x0 (ix3 p l k) = dist_norm x0 p l := by
  unfold dist_normArr
  refine (dist_spread _ _ p l k).trans ?_
  show max (Ideal.sqrt (shapeCast S16x64x1 _ Facts₀.shapeCasts_S16x64_S16x64x1 (ix3 p l (0 : Fin 1)))) (Ideal.ofBits .f32 0x2B8CBCCC#32) = _
  rw [dist_keepdims, dist_laneSum]
  rfl

/-- The array of unit rows at (p, l, k). -/
theorem dist_unitArr_apply (x0 : Vec Ideal S16x64x1024 .f32) (p : Fin 16) (l : Fin 64) (k : Fin 1024) :
    dist_unitArr x0 (ix3 p l k) = dist_unit x0 p l k := by
  show Ideal.div (x0 (ix3 p l k)) (dist_normArr x0 (ix3 p l k)) = _
  rw [dist_normArr_apply]
  rfl

/-- The batched product over the last axes ("bld,bmd->blm") into a zero accumulator, read at (p, l, m): the sum over
    the contracted coordinate of the products of the two operands' entries in batch p. -/
theorem dist_matmul_apply (A B : FVec Ideal S16x64x1024 .bf16) (p : Fin 16) (l m : Fin 64) :
    matmul dot_S16x64x1024_S16x64x1024_S16x64x64_2_2_1_1_0_0 none A B (constant S16x64x64 .f32 0x00000000#32) (ix3 p l m)
      = ∑ k : Fin 1024, A (ix3 p l k) * B (ix3 p m k) := by
  refine (Ideal.matmul_constant_zero_apply dot_S16x64x1024_S16x64x1024_S16x64x64_2_2_1_1_0_0 none A B (ix3 p l m)).trans ?_
  rw [← Equiv.sum_comp (contrEquiv1 dot_S16x64x1024_S16x64x1024_S16x64x64_2_2_1_1_0_0 1024 rfl rfl).symm]
  refine Finset.sum_congr rfl fun k _ => ?_
  have ck := contrEquiv1_symm_val dot_S16x64x1024_S16x64x1024_S16x64x64_2_2_1_1_0_0 1024 rfl rfl k
  have hl : dot_S16x64x1024_S16x64x1024_S16x64x64_2_2_1_1_0_0.lhsIdx (ix3 p l m)
      ((contrEquiv1 dot_S16x64x1024_S16x64x1024_S16x64x64_2_2_1_1_0_0 1024 rfl rfl).symm k) = ix3 p l k := by
    funext ax; apply Fin.ext
    match ax with
    | ⟨0, _⟩ => rfl
    | ⟨1, _⟩ => rfl
    | ⟨2, _⟩ =>
      exact (DotDims.lhsIdx_val_of_single dot_S16x64x1024_S16x64x1024_S16x64x64_2_2_1_1_0_0 (cl := 2) rfl _ _).trans ck
  have hr : dot_S16x64x1024_S16x64x1024_S16x64x64_2_2_1_1_0_0.rhsIdx (ix3 p l m)
      ((contrEquiv1 dot_S16x64x1024_S16x64x1024_S16x64x64_2_2_1_1_0_0 1024 rfl rfl).symm k) = ix3 p m k := by
    funext ax; apply Fin.ext
    match ax with
    | ⟨0, _⟩ => rfl
    | ⟨1, _⟩ => rfl
    | ⟨2, _⟩ =>
      exact (DotDims.rhsIdx_val_of_single dot_S16x64x1024_S16x64x1024_S16x64x64_2_2_1_1_0_0 (cr := 2) rfl _ _).trans ck
  rw [hl, hr]

/-- THE PAYLOAD AT AN INDEX: 1 minus the inner product of unit rows l and m of batch p. -/
theorem pay0_apply (x0 : Vec Ideal S16x64x1024 .f32) (p : Fin 16) (l m : Fin 64) :
    k0_pay1 (F := Ideal) x0 (ix3 p l m)
      = Cert.TripletSpec.one - ∑ k : Fin 1024, dist_unit x0 p l k * dist_unit x0 p m k := by
  rw [pay0_eq]
  show Ideal.ofBits .f32 0x3F800000#32 - matmul dot_S16x64x1024_S16x64x1024_S16x64x64_2_2_1_1_0_0 none (dist_unitArr x0) (dist_unitArr x0)
      (constant S16x64x64 .f32 0x00000000#32) (ix3 p l m) = _
  rw [dist_matmul_apply]
  refine congrArg (Cert.TripletSpec.one - ·) (Finset.sum_congr rfl fun k _ => ?_)
  rw [dist_unitArr_apply, dist_unitArr_apply]

/-! ## One block against the whole array -/

/-- When row p of a block is batch row b of the array X, the payload at (p, l, m) is the cosine distance of rows
    l and m of batch b: both are built from the same entries by the same operations. -/
theorem dist_block_eq (X : (⟨3, ![256, 64, 1024]⟩ : Shape).Idx → EReal) (x0 : Vec Ideal S16x64x1024 .f32)
    (p : Fin 16) (b : Fin 256) (hx : ∀ (l : Fin 64) (k : Fin 1024), x0 (ix3 p l k) = X (ix3 b l k)) (l m : Fin 64) :
    k0_pay1 (F := Ideal) x0 (ix3 p l m) = Cert.TripletSpec.cosD X b l m := by
  rw [pay0_apply]
  unfold Cert.TripletSpec.cosD Cert.TripletSpec.unitRow Cert.TripletSpec.rowNorm dist_unit dist_norm
  simp only [hx]

/-- The same at a block index y and an array index i whose last two coordinates agree with y's. -/
theorem dist_block_at (X : (⟨3, ![256, 64, 1024]⟩ : Shape).Idx → EReal) (x0 : Vec Ideal S16x64x1024 .f32)
    (y : S16x64x64.Idx) (i : S256x64x64.Idx)
    (hx : ∀ (l : Fin 64) (k : Fin 1024), x0 (ix3 (y 0) l k) = X (ix3 (i 0) l k))
    (h1 : (i 1).val = (y 1).val) (h2 : (i 2).val = (y 2).val) :
    k0_pay1 (F := Ideal) x0 y = Cert.TripletSpec.cosD X (i 0) (i 1) (i 2) := by
  have e1 : (i 1 : Fin 64) = y 1 := Fin.ext h1
  have e2 : (i 2 : Fin 64) = y 2 := Fin.ext h2
  refine (congrArg (k0_pay1 (F := Ideal) x0) (eq_ix3 y)).trans ?_
  refine (dist_block_eq X x0 (y 0) (i 0) hx (y 1) (y 2)).trans ?_
  exact congrArg₂ (Cert.TripletSpec.cosD X (i 0)) e1.symm e2.symm

/-! ## From blocks to the array -/

theorem dist_hz : (![0, 0, 0] : Fin 3 → Nat) = fun _ => 0 := funext fun a => by fin_cases a <;> rfl

/-- The printed index maps, decided over the 16 grid points: the input block moves with the output block along the
    batch axis, and neither moves along the other two. -/
theorem dist_idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 15 :=
  (by decide +kernel : ∀ t : Fin grid0.N, _)

/-- Every group of 16 batch rows is SOME point's output block. -/
theorem dist_idx_onto : ∀ q : Fin 16, ∃ t : Fin cfg0.N, win0_1.index t = ![q.val, 0, 0] :=
  (by decide +kernel : ∀ q : Fin 16, ∃ t : Fin grid0.N, win0_1.index t = ![q.val, 0, 0])

/-- WHAT POINT t WRITES BACK is block t of the array of cosine distances of the input array as the region finds it. -/
theorem dist_flushed (V : (c : Dev nD) → (b : Ref sig .tc) → Buf (Elt Ideal) ((c : Thread nD τ).loc b)) (c : Dev nD)
    (t : Fin cfg0.N) :
    (dat0 (F := Ideal) V c).flushed 1 t
      = ((cfg0.win 1).blk t).view.read (Elt Ideal) (fun j => Cert.TripletSpec.cosD (V c main_arg0) (j 0) (j 1) (j 2)) := by
  show (cfg0.win 1).cut (grid0.coords t) ((dat0 V c).after 1 t) = _
  rw [after0_1]
  unfold out0_1
  rw [View.canon_unit_zero dist_hz]
  simp only [View.ld_unit_zero (S := S16x64x1024) dist_hz]
  obtain ⟨e0, e1, e2, e3, e4, e5⟩ := dist_idx_facts t
  funext j
  refine dist_block_at (V c main_arg0) (iblk0 V c 0 t) j (((cfg0.win 1).blk t).view.emb j) (fun l k => ?_) ?_ ?_
  · show V c main_arg0 (((cfg0.win 0).blk t).view.emb (ix3 (j 0) l k)) = V c main_arg0 (ix3 ((((cfg0.win 1).blk t).view.emb j) 0) l k)
    refine congrArg (V c main_arg0) (funext fun a => Fin.ext ?_)
    match a with
    | ⟨0, _⟩ =>
      show win0_0.index t (0 : Fin 3) * 16 + 1 * (j 0).val = win0_1.index t (0 : Fin 3) * 16 + 1 * (j 0).val
      rw [e0]
    | ⟨1, _⟩ =>
      show win0_0.index t (1 : Fin 3) * 64 + 1 * l.val = l.val
      rw [e1]; omega
    | ⟨2, _⟩ =>
      show win0_0.index t (2 : Fin 3) * 1024 + 1 * k.val = k.val
      rw [e2]; omega
  · show win0_1.index t (1 : Fin 3) * 64 + 1 * (j 1).val = (j 1).val
    rw [e3]; omega
  · show win0_1.index t (2 : Fin 3) * 64 + 1 * (j 2).val = (j 2).val
    rw [e4]; omega

/-- An index of the array is in point t's block iff each coordinate is in the block's range on its axis. -/
theorem dist_mem_blk (t : Fin cfg0.N) (i : S256x64x64.Idx) :
    i ∈ ((cfg0.win 1).blk t).view.set ↔ ∀ a : Fin 3, win0_1.index t a * S16x64x64.size a ≤ (i a).val
      ∧ (i a).val < win0_1.index t a * S16x64x64.size a + S16x64x64.size a := by
  show i ∈ ((View.whole main_v2).slice (win0_1.rect t)).set ↔ _
  rw [View.set_slice_whole, Rect.mem_set_unit]
  exact Iff.rfl

/-- Every index of the array is in some point's block: batch row r lies in the block of point r / 16. -/
theorem dist_cover (i : S256x64x64.Idx) :
    ∃ t : Fin cfg0.N, (cfg0.win 1).flush t = true ∧ i ∈ ((cfg0.win 1).blk t).view.set := by
  have hi0 : (i 0).val < 256 := (i 0).isLt
  have hi1 : (i 1).val < 64 := (i 1).isLt
  have hi2 : (i 2).val < 64 := (i 2).isLt
  obtain ⟨t, ht⟩ := dist_idx_onto ⟨(i 0).val / 16, by omega⟩
  have q0 : win0_1.index t (0 : Fin 3) = (i 0).val / 16 := congrFun ht 0
  have q1 : win0_1.index t (1 : Fin 3) = 0 := congrFun ht 1
  have q2 : win0_1.index t (2 : Fin 3) = 0 := congrFun ht 2
  refine ⟨t, flush0_1 t, ?_⟩
  rw [dist_mem_blk]
  intro a
  match a with
  | ⟨0, _⟩ =>
    show win0_1.index t (0 : Fin 3) * 16 ≤ (i 0).val ∧ (i 0).val < win0_1.index t (0 : Fin 3) * 16 + 16
    omega
  | ⟨1, _⟩ =>
    show win0_1.index t (1 : Fin 3) * 64 ≤ (i 1).val ∧ (i 1).val < win0_1.index t (1 : Fin 3) * 64 + 64
    omega
  | ⟨2, _⟩ =>
    show win0_1.index t (2 : Fin 3) * 64 ≤ (i 2).val ∧ (i 2).val < win0_1.index t (2 : Fin 3) * 64 + 64
    omega

/-- THE ARRAY after the region: the cosine distances of the input array, index by index. -/
theorem cosdist_array (V : (c : Dev nD) → (b : Ref sig .tc) → Buf (Elt Ideal) ((c : Thread nD τ).loc b)) (c : Dev nD) :
    (dat0 (F := Ideal) V c).arrAt 1 cfg0.N = fun j => Cert.TripletSpec.cosD (V c main_arg0) (j 0) (j 1) (j 2) :=
  (dat0 (F := Ideal) V c).arrAt_eq_of_cover 1 _ (fun t _ => dist_flushed V c t) dist_cover

end Cert.KernelIdeal.RegionValue

end
-- ==== Proof.RowRegion.lean ====
/-
  The per-anchor reduction region, read at the two lanes that matter.

  The region runs once per anchor label a (64 grid points). At point a the body reads the anchor's block of distances
  D[·, a, ·] (stored anchor-first), the whole array of labels, the anchor's row of transposed labels lab[·, a], its row of
  the ancestor table and its row of level differences. From them it forms, for every (b, p, n), the hinge argument
  D[b, a, p] - (D[b, a, n] - 1 · ld[a, n]) and the mask (lab[b, a] · (lab[b, p] · lab[b, n])) · (anc[a, p] · (1 - anc[a, n])),
  sums hinge-clipped-at-zero times mask, and the mask alone, over n, then p, then b, and stores a [1, 1, 128] block whose
  lane 0 is the first sum, lane 1 the second and every other lane zero. Block a of the [64, 1, 128] output array is
  written back at point a, so after the region row a of the array holds, at lanes 0 and 1, the specification's row loss and
  row count of anchor a.

  The file goes in that order: unit-axis casts and broadcasts read at coordinates; the hinge argument, the mask and the
  clipping zero at an index; the three nested lane sums and the lane selection; each input block as a slice of its array;
  the output array after the write-backs; the two lanes.
-/
import proofs.«154496_j7928509628770_2_alg».proof.Proof.Gen.KernelIdeal.Frame
import proofs.«154496_j7928509628770_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem

/-! ## Shape casts and broadcasts that move or add unit axes, read at an index given by coordinates -/

section Layout
variable {α : Type}

/-- An `[a, b]` array cast to `[a, b, 1]` reads, at `(i, j, u)`, the operand at `(i, j)`. -/
theorem row_cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem row_cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, 1, a]` array cast to `[a]` reads, at `i`, the operand at `(0, 0, i)`. -/
theorem row_cast_11a_a {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to `[1, a, 1]` reads, at `(u, i, w)`, the operand at `i`. -/
theorem row_cast_a_1a1 {a : ℕ} (x : (⟨1, ![a]⟩ : Shape).Idx → α)
    (h : (⟨1, ![a]⟩ : Shape).ShapeCasts ⟨3, ![1, a, 1]⟩) (u : Fin 1) (i : Fin a) (w : Fin 1) :
    shapeCast ⟨3, ![1, a, 1]⟩ x h (ix3 u i w) = x (ix1 i) :=
  shapeCast_apply x h _ _ (by
    have hu : u.val = 0 := by omega
    have hw : w.val = 0 := by omega
    rw [Shape.rowMajor_val_three, Shape.rowMajor_val_one]
    show i.val = (u.val * a + i.val) * 1 + w.val
    simp only [hu, hw, Nat.zero_mul, Nat.zero_add, Nat.mul_one, Nat.add_zero])

/-- An `[a]` array cast to `[1, 1, a]` reads, at `(u, w, i)`, the operand at `i`. -/
theorem row_cast_a_11a {a : ℕ} (x : (⟨1, ![a]⟩ : Shape).Idx → α)
    (h : (⟨1, ![a]⟩ : Shape).ShapeCasts ⟨3, ![1, 1, a]⟩) (u : Fin 1) (w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp only [hu, hw, Nat.zero_mul, Nat.zero_add])

/-- An `[a]` array cast to `[a, 1, 1]` reads, at `(i, u, w)`, the operand at `i`. -/
theorem row_cast_a_a11 {a : ℕ} (x : (⟨1, ![a]⟩ : Shape).Idx → α)
    (h : (⟨1, ![a]⟩ : Shape).ShapeCasts ⟨3, ![a, 1, 1]⟩) (i : Fin a) (u : Fin 1) (w : Fin 1) :
    shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    simp only [hu, hw, Nat.mul_one, Nat.add_zero])

/-- An `[a]` array cast to `[a, 1]` reads, at `(i, u)`, the operand at `i`. -/
theorem row_cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem row_bcast_ab1_abc {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem row_bcast_a1c_abc {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, 1, 1]` array broadcast to `[a, b, c]` reads, at `(i, j, k)`, the operand at `(i, 0, 0)`. -/
theorem row_bcast_a11_abc {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- A `[1, b, c]` array broadcast to `[a, b, c]` reads, at `(i, j, k)`, the operand at `(0, j, k)`. -/
theorem row_bcast_1bc_abc {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

/-! ## The hinge argument, the mask and the clipping zero at an index -/

/-- The hinge argument at `(b, p, n)`: `D[b, p] - (D[b, n] - 1 · ld[n])` of the anchor's block of distances and row of level
    differences. -/
theorem pay1_hinge (x0 : Vec Ideal S1x256x64 .f32) (x4 : Vec Ideal S1x1x64 .f32) (b : Fin 256) (p n : Fin 64) :
    k1_pay2 (F := Ideal) x0 x4 (ix3 b p n)
      = x0 (ix3 (0 : Fin 1) b p) - (x0 (ix3 (0 : Fin 1) b n) - Cert.TripletSpec.one * x4 (ix3 (0 : Fin 1) (0 : Fin 1) n)) := by
  unfold k1_pay2
  rw [shapeCast_self, shapeCast_self, subf_apply, row_bcast_ab1_abc, row_cast_ab_ab1, shapeCast_1ab_ab_apply, row_bcast_a1c_abc,
    row_cast_ab_a1b, subf_apply, shapeCast_1ab_ab_apply, broadcastTo_1b_ab_apply, mulf_apply, broadcast_apply,
    shapeCast_a_1a_apply, row_cast_11a_a]
  rfl

/-- The mask at `(b, p, n)`: `(lab_a[b] · (lab[b, p] · lab[b, n])) · (anc[p] · (1 - anc[n]))` of the labels, the anchor's row
    of transposed labels and its row of the ancestor table. -/
theorem pay1_mask (x1 : Vec Ideal S256x64 .f32) (x2 : Vec Ideal S1x1x256 .f32) (x3 : Vec Ideal S1x1x64 .f32)
    (b : Fin 256) (p n : Fin 64) :
    k1_pay3 (F := Ideal) x1 x2 x3 (ix3 b p n)
      = (x2 (ix3 (0 : Fin 1) (0 : Fin 1) b) * (x1 (ix2 b p) * x1 (ix2 b n)))
          * (x3 (ix3 (0 : Fin 1) (0 : Fin 1) p) * (Cert.TripletSpec.one - x3 (ix3 (0 : Fin 1) (0 : Fin 1) n))) := by
  unfold k1_pay3
  rw [shapeCast_self, shapeCast_self, shapeCast_self]
  rw [mulf_apply, mulf_apply, row_bcast_a11_abc, row_cast_a_a11, row_cast_11a_a, mulf_apply, row_bcast_ab1_abc, row_cast_ab_ab1,
    row_bcast_a1c_abc, row_cast_ab_a1b, row_bcast_1bc_abc, mulf_apply, row_bcast_ab1_abc, row_cast_a_1a1, row_cast_11a_a,
    row_bcast_a1c_abc, row_cast_a_11a, subf_apply, broadcast_apply, row_cast_11a_a]
  rfl

/-- The zero every hinge is clipped at, at any index. -/
theorem pay1_zero (j : S256x64x64.Idx) : k1_pay4 (F := Ideal) j = Cert.TripletSpec.zeroW := rfl

/-! ## The three nested lane sums, the lane selection, and the payload at lanes 0 and 1 -/

/-- The sum over the last axis of a `[256, 64, 64]` vector at `(b, p)`. -/
theorem row_sum_n (src : FVec Ideal S256x64x64 .f32) (h : S256x64x64.Reduces [2] S256x64) (hφ : FKind.Formats .f32)
    (hacc : (0x00000000#32 : BitVec 32) = 0x00000000#32) (b : Fin 256) (p : Fin 64) :
    multiReduction (F := Ideal) .add [2] S256x64 src 0x00000000#32 h hφ hacc (ix2 b p) = ∑ n : Fin 64, src (ix3 b p n) := by
  refine (Ideal.multiReduction_add_single src 0x00000000#32 h hφ hacc (ix2 b p)).trans ?_
  refine Finset.sum_congr rfl fun n _ => congrArg src ?_
  funext a; match a with | ⟨0, _⟩ => rfl | ⟨1, _⟩ => rfl | ⟨2, _⟩ => rfl

/-- The sum over the last axis of a `[256, 64]` vector at `b`. -/
theorem row_sum_p (src : FVec Ideal S256x64 .f32) (h : S256x64.Reduces [1] S256) (hφ : FKind.Formats .f32)
    (hacc : (0x00000000#32 : BitVec 32) = 0x00000000#32) (b : Fin 256) :
    multiReduction (F := Ideal) .add [1] S256 src 0x00000000#32 h hφ hacc (ix1 b) = ∑ p : Fin 64, src (ix2 b p) := by
  refine (Ideal.multiReduction_add_single src 0x00000000#32 h hφ hacc (ix1 b)).trans ?_
  refine Finset.sum_congr rfl fun p _ => congrArg src ?_
  funext a; match a with | ⟨0, _⟩ => rfl | ⟨1, _⟩ => rfl

/-- The sum over the first axis of a `[256, 1]` vector at its one index. -/
theorem row_sum_b (src : FVec Ideal S256x1 .f32) (h : S256x1.Reduces [0] S1) (hφ : FKind.Formats .f32)
    (hacc : (0x00000000#32 : BitVec 32) = 0x00000000#32) (u : Fin 1) :
    multiReduction (F := Ideal) .add [0] S1 src 0x00000000#32 h hφ hacc (ix1 u) = ∑ b : Fin 256, src (ix2 b u) := by
  refine (Ideal.multiReduction_add_single src 0x00000000#32 h hφ hacc (ix1 u)).trans ?_
  refine Finset.sum_congr rfl fun b _ => congrArg src ?_
  funext a; match a with | ⟨0, _⟩ => rfl | ⟨1, _⟩ => rfl

/-- An `[a, 1]` array broadcast to `[a, b]` reads, at `(i, j)`, the operand at `(i, 0)`. -/
theorem row_bcast_a1_ab {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The three nested sums of a `[256, 64, 64]` vector, cast to `[1, 1]` and spread over the 128 lanes, read at any lane:
    the sum over b of the sums over p of the sums over n. -/
theorem row_total (src : FVec Ideal S256x64x64 .f32) (l : Fin 128) :
    broadcastTo S1x128 (shapeCast S1x1 (shapeCast S1x1 (multiReduction (F := Ideal) .add [0] S1
      (shapeCast S256x1 (multiReduction (F := Ideal) .add [1] S256
        (multiReduction (F := Ideal) .add [2] S256x64 src 0x00000000#32 reduces_S256x64x64_S256x64 (.inl rfl) rfl)
        0x00000000#32 reduces_S256x64_S256 (.inl rfl) rfl) shapeCasts_S256_S256x1)
      0x00000000#32 reduces_S256x1_S1 (.inl rfl) rfl) shapeCasts_S1_S1x1) shapeCasts_S1x1_S1x1) broadcasts_S1x1_S1x128
        (ix2 (0 : Fin 1) l)
      = ∑ b : Fin 256, ∑ p : Fin 64, ∑ n : Fin 64, src (ix3 b p n) := by
  rw [row_bcast_a1_ab, shapeCast_self, shapeCast_a_1a_apply, row_sum_b]
  refine Finset.sum_congr rfl fun b _ => ?_
  rw [row_cast_a_a1, row_sum_p]
  refine Finset.sum_congr rfl fun p _ => ?_
  rw [row_sum_n]

/-- Lane 0 of the stored block is the triple sum of the clipped hinge argument times the mask. -/
theorem pay1_loss_lane (v25 v40 v41 : FVec Ideal S256x64x64 .f32) :
    k1_pay1 (F := Ideal) v25 v40 v41 (ix3 (0 : Fin 1) (0 : Fin 1) (0 : Fin 128))
      = ∑ b : Fin 256, ∑ p : Fin 64, ∑ n : Fin 64, max (v25 (ix3 b p n)) (v41 (ix3 b p n)) * v40 (ix3 b p n) := by
  unfold k1_pay1
  rw [shapeCast_ab_1ab_apply, select_apply,
    show cmpi .eq (iota .tc S1x128 32 [1] iota_S1x128_d1_w32) (broadcast S1x128 0#32) (ix2 (0 : Fin 1) (0 : Fin 128)) = 1#1 from by decide,
    select_one, row_total]
  rfl

/-- Lane 1 of the stored block is the triple sum of the mask. -/
theorem pay1_count_lane (v25 v40 v41 : FVec Ideal S256x64x64 .f32) :
    k1_pay1 (F := Ideal) v25 v40 v41 (ix3 (0 : Fin 1) (0 : Fin 1) (1 : Fin 128))
      = ∑ b : Fin 256, ∑ p : Fin 64, ∑ n : Fin 64, v40 (ix3 b p n) := by
  unfold k1_pay1
  rw [shapeCast_ab_1ab_apply, select_apply,
    show cmpi .eq (iota .tc S1x128 32 [1] iota_S1x128_d1_w32) (broadcast S1x128 0#32) (ix2 (0 : Fin 1) (1 : Fin 128)) = 0#1 from by decide,
    select_zero, select_apply,
    show cmpi .eq (iota .tc S1x128 32 [1] iota_S1x128_d1_w32) (broadcast S1x128 1#32) (ix2 (0 : Fin 1) (1 : Fin 128)) = 1#1 from by decide,
    select_one, row_total]

/-- The body's stored block at lane 0, from the five input blocks: the anchor's weighted hinges summed over n, p, b. -/
theorem pay1_loss (x0 : Vec Ideal S1x256x64 .f32) (x1 : Vec Ideal S256x64 .f32) (x2 : Vec Ideal S1x1x256 .f32)
    (x3 : Vec Ideal S1x1x64 .f32) (x4 : Vec Ideal S1x1x64 .f32) :
    k1_pay1 (F := Ideal) (k1_pay2 x0 x4) (k1_pay3 x1 x2 x3) k1_pay4 (ix3 (0 : Fin 1) (0 : Fin 1) (0 : Fin 128))
      = ∑ b : Fin 256, ∑ p : Fin 64, ∑ n : Fin 64,
          max (x0 (ix3 (0 : Fin 1) b p) - (x0 (ix3 (0 : Fin 1) b n) - Cert.TripletSpec.one * x4 (ix3 (0 : Fin 1) (0 : Fin 1) n)))
              Cert.TripletSpec.zeroW
            * ((x2 (ix3 (0 : Fin 1) (0 : Fin 1) b) * (x1 (ix2 b p) * x1 (ix2 b n)))
                * (x3 (ix3 (0 : Fin 1) (0 : Fin 1) p) * (Cert.TripletSpec.one - x3 (ix3 (0 : Fin 1) (0 : Fin 1) n)))) := by
  rw [pay1_loss_lane]
  refine Finset.sum_congr rfl fun b _ => Finset.sum_congr rfl fun p _ => Finset.sum_congr rfl fun n _ => ?_
  rw [pay1_hinge, pay1_mask, pay1_zero]

/-- The body's stored block at lane 1: the anchor's masks summed over n, p, b. -/
theorem pay1_count (x0 : Vec Ideal S1x256x64 .f32) (x1 : Vec Ideal S256x64 .f32) (x2 : Vec Ideal S1x1x256 .f32)
    (x3 : Vec Ideal S1x1x64 .f32) (x4 : Vec Ideal S1x1x64 .f32) :
    k1_pay1 (F := Ideal) (k1_pay2 x0 x4) (k1_pay3 x1 x2 x3) k1_pay4 (ix3 (0 : Fin 1) (0 : Fin 1) (1 : Fin 128))
      = ∑ b : Fin 256, ∑ p : Fin 64, ∑ n : Fin 64,
          ((x2 (ix3 (0 : Fin 1) (0 : Fin 1) b) * (x1 (ix2 b p) * x1 (ix2 b n)))
            * (x3 (ix3 (0 : Fin 1) (0 : Fin 1) p) * (Cert.TripletSpec.one - x3 (ix3 (0 : Fin 1) (0 : Fin 1) n)))) := by
  rw [pay1_count_lane]
  refine Finset.sum_congr rfl fun b _ => Finset.sum_congr rfl fun p _ => Finset.sum_congr rfl fun n _ => ?_
  rw [pay1_mask]

/-! ## From the anchors' blocks to the output array -/

section Blocks
variable (V : (c : Dev nD) → (b : Ref sig .tc) → Buf (Elt Ideal) ((c : Thread nD τ).loc b))

theorem row_hz3 : (![0, 0, 0] : Fin 3 → Nat) = fun _ => 0 := funext fun a => by fin_cases a <;> rfl
theorem row_hz2 : (![0, 0] : Fin 2 → Nat) = fun _ => 0 := funext fun a => by fin_cases a <;> rfl

/-- The printed index maps, decided over the 64 grid points: the distances, the transposed labels, the ancestor row, the
    level-difference row and the output all move with the point along their first axis and sit at block 0 on the others;
    the labels' window is the whole array at every point. -/
theorem row_idx : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0
    ∧ win1_5.index t (0 : Fin 3) = t.val ∧ win1_5.index t (1 : Fin 3) = 0 ∧ win1_5.index t (2 : Fin 3) = 0 :=
  (by decide +kernel : ∀ t : Fin grid1.N, _)

/-- The grid point that handles anchor label `a`: the `a`-th. -/
def row_pt (a : Fin 64) : Fin cfg1.N :=
  ⟨a.val, by have h : grid1.N = 64 := N_1; have := a.isLt; show a.val < grid1.N; omega⟩

/-- The distances' block at the point of anchor `a` is `D[·, a, ·]` (stored transposed, anchor first). -/
theorem row_blk_D (c : Dev nD) (t : Fin cfg1.N) (a : Fin 64) (ha : t.val = a.val) (b : Fin 256) (p : Fin 64) :
    (iblk1 (F := Ideal) V c 0 t : Vec Ideal S1x256x64 .f32) (ix3 (0 : Fin 1) b p) = V c main_v3 (ix3 a b p) := by
  obtain ⟨e0, e1, e2, -⟩ := row_idx t
  show V c main_v3 (((cfg1.win 0).blk t).view.emb (ix3 (0 : Fin 1) b p)) = V c main_v3 (ix3 a b p)
  refine congrArg (V c main_v3) (funext fun ax => Fin.ext ?_)
  match ax with
  | ⟨0, _⟩ => show win1_0.index t (0 : Fin 3) * 1 + 1 * 0 = a.val; omega
  | ⟨1, _⟩ => show win1_0.index t (1 : Fin 3) * 256 + 1 * b.val = b.val; omega
  | ⟨2, _⟩ => show win1_0.index t (2 : Fin 3) * 64 + 1 * p.val = p.val; omega

/-- The labels' window is the whole array of labels at every point. -/
theorem row_blk_lab (c : Dev nD) (t : Fin cfg1.N) (b : Fin 256) (p : Fin 64) :
    (iblk1 (F := Ideal) V c 1 t : Vec Ideal S256x64 .f32) (ix2 b p) = V c main_v4 (ix2 b p) := by
  obtain ⟨-, -, -, e0, e1, -⟩ := row_idx t
  show V c main_v4 (((cfg1.win 1).blk t).view.emb (ix2 b p)) = V c main_v4 (ix2 b p)
  refine congrArg (V c main_v4) (funext fun ax => Fin.ext ?_)
  match ax with
  | ⟨0, _⟩ => show win1_1.index t (0 : Fin 2) * 256 + 1 * b.val = b.val; omega
  | ⟨1, _⟩ => show win1_1.index t (1 : Fin 2) * 64 + 1 * p.val = p.val; omega

/-- The transposed labels' block at the point of anchor `a` is the row `lab[·, a]`. -/
theorem row_blk_labA (c : Dev nD) (t : Fin cfg1.N) (a : Fin 64) (ha : t.val = a.val) (b : Fin 256) :
    (iblk1 (F := Ideal) V c 2 t : Vec Ideal S1x1x256 .f32) (ix3 (0 : Fin 1) (0 : Fin 1) b) = V c main_v6 (ix3 a (0 : Fin 1) b) := by
  obtain ⟨-, -, -, -, -, e0, e1, e2, -⟩ := row_idx t
  show V c main_v6 (((cfg1.win 2).blk t).view.emb (ix3 (0 : Fin 1) (0 : Fin 1) b)) = V c main_v6 (ix3 a (0 : Fin 1) b)
  refine congrArg (V c main_v6) (funext fun ax => Fin.ext ?_)
  match ax with
  | ⟨0, _⟩ => show win1_2.index t (0 : Fin 3) * 1 + 1 * 0 = a.val; omega
  | ⟨1, _⟩ => show win1_2.index t (1 : Fin 3) * 1 + 1 * 0 = 0; omega
  | ⟨2, _⟩ => show win1_2.index t (2 : Fin 3) * 256 + 1 * b.val = b.val; omega

/-- The ancestor table's block at the point of anchor `a` is its row `a`. -/
theorem row_blk_anc (c : Dev nD) (t : Fin cfg1.N) (a : Fin 64) (ha : t.val = a.val) (p : Fin 64) :
    (iblk1 (F := Ideal) V c 3 t : Vec Ideal S1x1x64 .f32) (ix3 (0 : Fin 1) (0 : Fin 1) p) = V c main_v0 (ix3 a (0 : Fin 1) p) := by
  obtain ⟨-, -, -, -, -, -, -, -, e0, e1, e2, -⟩ := row_idx t
  show V c main_v0 (((cfg1.win 3).blk t).view.emb (ix3 (0 : Fin 1) (0 : Fin 1) p)) = V c main_v0 (ix3 a (0 : Fin 1) p)
  refine congrArg (V c main_v0) (funext fun ax => Fin.ext ?_)
  match ax with
  | ⟨0, _⟩ => show win1_3.index t (0 : Fin 3) * 1 + 1 * 0 = a.val; omega
  | ⟨1, _⟩ => show win1_3.index t (1 : Fin 3) * 1 + 1 * 0 = 0; omega
  | ⟨2, _⟩ => show win1_3.index t (2 : Fin 3) * 64 + 1 * p.val = p.val; omega

/-- The level differences' block at the point of anchor `a` is their row `a`. -/
theorem row_blk_ld (c : Dev nD) (t : Fin cfg1.N) (a : Fin 64) (ha : t.val = a.val) (n : Fin 64) :
    (iblk1 (F := Ideal) V c 4 t : Vec Ideal S1x1x64 .f32) (ix3 (0 : Fin 1) (0 : Fin 1) n) = V c main_v1 (ix3 a (0 : Fin 1) n) := by
  obtain ⟨-, -, -, -, -, -, -, -, -, -, -, e0, e1, e2, -⟩ := row_idx t
  show V c main_v1 (((cfg1.win 4).blk t).view.emb (ix3 (0 : Fin 1) (0 : Fin 1) n)) = V c main_v1 (ix3 a (0 : Fin 1) n)
  refine congrArg (V c main_v1) (funext fun ax => Fin.ext ?_)
  match ax with
  | ⟨0, _⟩ => show win1_4.index t (0 : Fin 3) * 1 + 1 * 0 = a.val; omega
  | ⟨1, _⟩ => show win1_4.index t (1 : Fin 3) * 1 + 1 * 0 = 0; omega
  | ⟨2, _⟩ => show win1_4.index t (2 : Fin 3) * 64 + 1 * n.val = n.val; omega

/-- What the output array holds at index `j` once every anchor's block is written back: the body's stored block for anchor
    `j 0`, computed from that anchor's input blocks, read at lane `j 2`. -/
def row_array (c : Dev nD) : S64x1x128.Idx → Elt Ideal .f32 := fun j =>
  k1_pay1 (F := Ideal)
    (k1_pay2 (iblk1 V c 0 (row_pt (j 0))) (iblk1 V c 4 (row_pt (j 0))))
    (k1_pay3 (iblk1 V c 1 (row_pt (j 0))) (iblk1 V c 2 (row_pt (j 0))) (iblk1 V c 3 (row_pt (j 0))))
    k1_pay4 (ix3 (0 : Fin 1) (0 : Fin 1) (j 2))

/-- That array at an index whose first coordinate is the point `t` and whose lane is `y`'s: the stored block of point `t`
    at `y`. -/
theorem row_array_at (c : Dev nD) (t : Fin cfg1.N) (j : S64x1x128.Idx) (y : S1x1x128.Idx)
    (h0 : (j 0).val = t.val) (h2 : (j 2).val = (y 2).val) :
    row_array V c j
      = k1_pay1 (F := Ideal) (k1_pay2 (iblk1 V c 0 t) (iblk1 V c 4 t)) (k1_pay3 (iblk1 V c 1 t) (iblk1 V c 2 t) (iblk1 V c 3 t))
          k1_pay4 y := by
  obtain rfl : t = row_pt (j 0) := Fin.ext h0.symm
  have e : (ix3 (0 : Fin 1) (0 : Fin 1) (j 2) : S1x1x128.Idx) = y := funext fun ax => Fin.ext (by
    match ax with
    | ⟨0, _⟩ => show 0 = (y 0).val; have : (y 0).val < 1 := (y 0).isLt; omega
    | ⟨1, _⟩ => show 0 = (y 1).val; have : (y 1).val < 1 := (y 1).isLt; omega
    | ⟨2, _⟩ => exact h2)
  unfold row_array
  rw [e]

/-- What the point `t` writes back is block `t` of that array. -/
theorem row_flushed (c : Dev nD) (t : Fin cfg1.N) :
    (dat1 (F := Ideal) V c).flushed 5 t = ((cfg1.win 5).blk t).view.read (Elt Ideal) (row_array V c) := by
  show (cfg1.win 5).cut (grid1.coords t) ((dat1 V c).after 5 t) = _
  rw [after1_5]
  unfold out1_5
  rw [View.canon_unit_zero row_hz3]
  simp only [View.ld_unit_zero (S := S1x256x64) row_hz3, View.ld_unit_zero (S := S256x64) row_hz2,
    View.ld_unit_zero (S := S1x1x256) row_hz3, View.ld_unit_zero (S := S1x1x64) row_hz3]
  obtain ⟨-, -, -, -, -, -, -, -, -, -, -, -, -, -, e0, e1, e2⟩ := row_idx t
  funext y
  refine (row_array_at V c t (((cfg1.win 5).blk t).view.emb y) y ?_ ?_).symm
  · show win1_5.index t (0 : Fin 3) * 1 + 1 * (y 0).val = t.val
    have : (y 0).val < 1 := (y 0).isLt
    omega
  · show win1_5.index t (2 : Fin 3) * 128 + 1 * (y 2).val = (y 2).val
    omega

/-- Every index of row `a` of the output array lies in the block of the point of anchor `a`. -/
theorem row_mem (t : Fin cfg1.N) (a : Fin 64) (ha : t.val = a.val) (l : Fin 128) :
    (ix3 a (0 : Fin 1) l : S64x1x128.Idx) ∈ ((cfg1.win 5).blk t).view.set := by
  obtain ⟨-, -, -, -, -, -, -, -, -, -, -, -, -, -, e0, e1, e2⟩ := row_idx t
  show (ix3 a (0 : Fin 1) l : S64x1x128.Idx) ∈ ((View.whole main_v7).slice (win1_5.rect t)).set
  rw [View.set_slice_whole, Rect.mem_set_unit]
  intro ax
  have hl : l.val < 128 := l.isLt
  match ax with
  | ⟨0, _⟩ => show win1_5.index t (0 : Fin 3) * 1 ≤ a.val ∧ a.val < win1_5.index t (0 : Fin 3) * 1 + 1; omega
  | ⟨1, _⟩ => show win1_5.index t (1 : Fin 3) * 1 ≤ 0 ∧ 0 < win1_5.index t (1 : Fin 3) * 1 + 1; omega
  | ⟨2, _⟩ => show win1_5.index t (2 : Fin 3) * 128 ≤ l.val ∧ l.val < win1_5.index t (2 : Fin 3) * 128 + 128; omega

/-- So after the 64 write-backs, row `a` of the output array at lane `l` is the stored block of anchor `a`'s point at lane `l`. -/
theorem row_entry (c : Dev nD) (a : Fin 64) (l : Fin 128) :
    (dat1 (F := Ideal) V c).arrAt 5 cfg1.N (ix3 a (0 : Fin 1) l)
      = k1_pay1 (F := Ideal) (k1_pay2 (iblk1 V c 0 (row_pt a)) (iblk1 V c 4 (row_pt a)))
          (k1_pay3 (iblk1 V c 1 (row_pt a)) (iblk1 V c 2 (row_pt a)) (iblk1 V c 3 (row_pt a))) k1_pay4
          (ix3 (0 : Fin 1) (0 : Fin 1) l) :=
  ((dat1 (F := Ideal) V c).arrAt_apply_of_mem 5 (row_array V c) (fun t _ => row_flushed V c t) cfg1.N (row_pt a) _
      (row_pt a).isLt (flush1_5 _) (row_mem (row_pt a) a rfl l)).trans
    (row_array_at V c (row_pt a) _ (ix3 (0 : Fin 1) (0 : Fin 1) l) rfl rfl)

end Blocks

/-! ## The two lanes of a row of the output array -/

/-- Lane 0 of row `a` is the sum of anchor `a`'s weighted hinges over n, then p, then b. -/
theorem row_loss (V : (c : Dev nD) → (b : Ref sig .tc) → Buf (Elt Ideal) ((c : Thread nD τ).loc b)) (c : Dev nD) (a : Fin 64) :
    (dat1 (F := Ideal) V c).arrAt 5 cfg1.N (ix3 a (0 : Fin 1) (0 : Fin 128))
      = Cert.TripletSpec.lossRow (fun b a' p => V c main_v3 (ix3 a' b p)) (fun a' n => V c main_v1 (ix3 a' (0 : Fin 1) n))
          (fun b a' => V c main_v6 (ix3 a' (0 : Fin 1) b)) (fun b p => V c main_v4 (ix2 b p))
          (fun a' p => V c main_v0 (ix3 a' (0 : Fin 1) p)) a := by
  refine (row_entry V c a (0 : Fin 128)).trans ?_
  refine (pay1_loss (iblk1 V c 0 (row_pt a)) (iblk1 V c 1 (row_pt a)) (iblk1 V c 2 (row_pt a)) (iblk1 V c 3 (row_pt a))
    (iblk1 V c 4 (row_pt a))).trans ?_
  unfold Cert.TripletSpec.lossRow Cert.TripletSpec.hinge Cert.TripletSpec.maskK
  refine Finset.sum_congr rfl fun b _ => Finset.sum_congr rfl fun p _ => Finset.sum_congr rfl fun n _ => ?_
  rw [row_blk_D V c (row_pt a) a rfl b p, row_blk_D V c (row_pt a) a rfl b n, row_blk_ld V c (row_pt a) a rfl n,
    row_blk_labA V c (row_pt a) a rfl b, row_blk_lab V c (row_pt a) b p, row_blk_lab V c (row_pt a) b n,
    row_blk_anc V c (row_pt a) a rfl p, row_blk_anc V c (row_pt a) a rfl n]

/-- Lane 1 of row `a` is the sum of anchor `a`'s masks over n, then p, then b. -/
theorem row_count (V : (c : Dev nD) → (b : Ref sig .tc) → Buf (Elt Ideal) ((c : Thread nD τ).loc b)) (c : Dev nD) (a : Fin 64) :
    (dat1 (F := Ideal) V c).arrAt 5 cfg1.N (ix3 a (0 : Fin 1) (1 : Fin 128))
      = Cert.TripletSpec.countRow (fun b a' => V c main_v6 (ix3 a' (0 : Fin 1) b)) (fun b p => V c main_v4 (ix2 b p))
          (fun a' p => V c main_v0 (ix3 a' (0 : Fin 1) p)) a := by
  refine (row_entry V c a (1 : Fin 128)).trans ?_
  refine (pay1_count (iblk1 V c 0 (row_pt a)) (iblk1 V c 1 (row_pt a)) (iblk1 V c 2 (row_pt a)) (iblk1 V c 3 (row_pt a))
    (iblk1 V c 4 (row_pt a))).trans ?_
  unfold Cert.TripletSpec.countRow Cert.TripletSpec.maskK
  refine Finset.sum_congr rfl fun b _ => Finset.sum_congr rfl fun p _ => Finset.sum_congr rfl fun n _ => ?_
  rw [row_blk_labA V c (row_pt a) a rfl b, row_blk_lab V c (row_pt a) b p, row_blk_lab V c (row_pt a) b n,
    row_blk_anc V c (row_pt a) a rfl p, row_blk_anc V c (row_pt a) a rfl n]

end Cert.KernelIdeal.RegionValue

end
-- ==== Proof.KernelValue.lean ====
/-
  The idealized kernel program's run with its result NAMED. The program is two pipelined kernels among stretches of
  host operations: the first kernel writes the cosine distances D[b, l, m] block by block; host operations transpose
  them to [a, b, ·], turn the labels into reals and transpose those; the second kernel writes, for every anchor label
  a, one row holding the weighted hinges summed over (b, p, n) in lane 0 and the masks summed over (b, p, n) in lane 1;
  host operations slice the two lanes out, sum each over a, and close with loss / max(count, 1) where count > 0.
  Read through, the result buffer ends at the closing step of the row-by-row loss and count of the launch arguments.
-/
import proofs.«154496_j7928509628770_2_alg».proof.Proof.Gen.KernelIdeal.Frame
import proofs.«154496_j7928509628770_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.ValueRun

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents (the fold of the host stretches and the two kernels' write-backs from the launch memory) and the
    argument arrays as launched: the launch over the program's segments, the final state read at every unscoped buffer. -/
theorem run_result : θ_run defs (onTc (τ := τ) (main (F := F))) ⟨m, fun _ => 0, ρ⟩ (fun r => ∀ c : Dev nD,
      r.2.mem ((c.tc : Thread nD τ).loc main_v17) = W6 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v17 (by decide)),
       (h c _ (mem_uc main_arg0 (by decide))).trans (W6_main_arg0 m ρ c),
       (h c _ (mem_uc main_arg1 (by decide))).trans (W6_main_arg1 m ρ c)⟩)

end Run

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Glue
variable (m : (ℓ : Loc nD τ sig) → Buf (Elt Ideal) ℓ) (ρ : Dev nD → PrngReg) (c : Dev nD)

/-- One lane of the [64, 1, 128] row array, sliced out, reshaped to [64] and summed over the 64 rows from 0. -/
def laneSum (off : Fin 3 → Nat) (hs : S64x1x128.Slices off S64x1x1) (o : FVec Ideal S64x1x128 .f32) : FVec Ideal S_ .f32 :=
  Host.reduceAdd (F := Ideal) (shapeCast S64 (extractStridedSlice S64x1x1 off o hs) shapeCasts_S64x1x1_S64)
    (constant (F := Ideal) S_ .f32 0x00000000#32) reducesTo_S64_S_d0 h_S_

/-- The result buffer after the closing host operations: the closing step of lane 0's sum and lane 1's sum of the row
    array the second kernel leaves. -/
theorem result_closing : (W6 m ρ c (Proc.devRef .tc main_v17) : S_.Idx → EReal)
    = Cert.TripletSpec.closing (laneSum ![0, 0, 0] slices_S64x1x128_S64x1x1_0_0_0 (W4 m ρ c (Proc.devRef .tc main_v7)))
        (laneSum ![0, 0, 1] slices_S64x1x128_S64x1x1_0_0_1 (W4 m ρ c (Proc.devRef .tc main_v7))) := by
  dsimp only [W6, W5]
  simp only [hostOps2_1, hostOps2]
  after_results <;> rfl

/-- A lane's sum is the plain sum of that lane over the rows (the sum starts from the zero word). -/
theorem laneSum_apply (off : Fin 3 → Nat) (hs : S64x1x128.Slices off S64x1x1) (o : FVec Ideal S64x1x128 .f32) (l : Fin 128)
    (h0 : off 0 = 0) (h1 : off 1 = 0) (h2 : off 2 = l.val) (j : S_.Idx) :
    laneSum off hs o j = ∑ a : Fin 64, o (ix3 a (0 : Fin 1) l) := by
  unfold laneSum
  refine (Ideal.hostReduceAdd_total reducesTo_S64_S_d0 (fun b => b.elim0) _ _ j).trans ?_
  rw [show (constant (F := Ideal) S_ .f32 0x00000000#32) (Shape.Idx.first h_S_) = (0 : EReal) from Ideal.ofBits_zero_f32, zero_add]
  refine (sum_idx1 _).trans (Finset.sum_congr rfl fun a _ => ?_)
  refine (shapeCast_apply _ shapeCasts_S64x1x1_S64 (ix1 a) (ix3 a (0 : Fin 1) (0 : Fin 1)) ?_).trans ?_
  · refine (Shape.rowMajor_val_three (d := ![64, 1, 1]) (ix3 a (0 : Fin 1) (0 : Fin 1))).trans ?_
    refine Eq.trans ?_ (Shape.rowMajor_val_one (d := ![64]) (ix1 a)).symm
    show (a.val * 1 + 0) * 1 + 0 = a.val
    omega
  · refine extractStridedSlice_apply off o hs _ (ix3 a (0 : Fin 1) l) fun b => ?_
    match b with
    | ⟨0, _⟩ => show a.val = off 0 + a.val; omega
    | ⟨1, _⟩ => show 0 = off 1 + 0; omega
    | ⟨2, _⟩ => show l.val = off 2 + 0; omega

/-- The row array is what the second kernel's write-backs leave of its output window. -/
theorem rows_array : W4 m ρ c (Proc.devRef .tc main_v7) = (dat1 (V3 m ρ) c).arrAt 5 cfg1.N := W4_arr m ρ c 5

/-- The distances' array is what the first kernel's write-backs leave of its output window. -/
theorem dist_array : W2 m ρ c (Proc.devRef .tc main_v2) = (dat0 (V1 m ρ) c).arrAt 1 cfg0.N := W2_arr m ρ c 1

/-- The first kernel is entered with the features as launched (no host operation before it writes them). -/
theorem entry0_features : V1 m ρ c main_arg0 = m ((c.tc : Thread nD τ).loc main_arg0) := by
  dsimp only [V1, W1]
  simp only [hostOps0]
  after_results <;> rfl

/-- The labels are as launched when the first kernel is left (it has no window on them). -/
theorem exit0_labels : W2 m ρ c (Proc.devRef .tc main_arg1) = m ((c.tc : Thread nD τ).loc main_arg1) := by
  refine (W2_of_ne m ρ c main_arg1 (by decide)).trans ?_
  dsimp only [W1]
  simp only [hostOps0]
  after_results <;> rfl

/-- The labels as reals. -/
def labels : FVec Ideal S256x64 .f32 := sitofp (F := Ideal) .f32 (m ((c.tc : Thread nD τ).loc main_arg1))

/-- The ancestor table's entry (a, p), as the program's constant holds it. -/
def ancK (a p : Fin 64) : EReal := Ideal.ofBits .f32 (lit0 (S64x64.rowMajor (ix2 a p)))
/-- The level-difference table's entry (a, n). -/
def ldK (a n : Fin 64) : EReal := Ideal.ofBits .f32 (lit1 (S64x64.rowMajor (ix2 a n)))

/-- The second kernel's first operand: the distances transposed to [a, b, ·]. -/
theorem entry1_dist (a' : Fin 64) (b : Fin 256) (p : Fin 64) :
    (V3 m ρ c main_v3 : S64x256x64.Idx → EReal) (ix3 a' b p)
      = (W2 m ρ c (Proc.devRef .tc main_v2) : S256x64x64.Idx → EReal) (ix3 b a' p) := by
  have e : (V3 m ρ c main_v3 : S64x256x64.Idx → EReal)
      = transpose S64x256x64 [1, 0, 2] (W2 m ρ c (Proc.devRef .tc main_v2)) transposes_S256x64x64_S64x256x64_1_0_2 := by
    dsimp only [V3, W3]
    simp only [hostOps1]
    after_results <;> rfl
  rw [e]
  refine transpose_apply [1, 0, 2] _ transposes_S256x64x64_S64x256x64_1_0_2 (ix3 a' b p) (ix3 b a' p) fun q => ?_
  match q with
  | ⟨0, _⟩ => rfl
  | ⟨1, _⟩ => rfl
  | ⟨2, _⟩ => rfl

/-- Its second operand: the labels as reals. -/
theorem entry1_lab : (V3 m ρ c main_v4 : S256x64.Idx → EReal) = labels m c := by
  have e : (V3 m ρ c main_v4 : S256x64.Idx → EReal) = sitofp (F := Ideal) .f32 (W2 m ρ c (Proc.devRef .tc main_arg1)) := by
    dsimp only [V3, W3]
    simp only [hostOps1]
    after_results <;> rfl
  rw [e, exit0_labels]
  rfl

/-- Its third operand: the labels as reals, transposed and reshaped to [a, 1, b]. -/
theorem entry1_labT (a' : Fin 64) (b : Fin 256) :
    (V3 m ρ c main_v6 : S64x1x256.Idx → EReal) (ix3 a' (0 : Fin 1) b) = labels m c (ix2 b a') := by
  have e : (V3 m ρ c main_v6 : S64x1x256.Idx → EReal)
      = shapeCast S64x1x256 (transpose S64x256 [1, 0] (sitofp (F := Ideal) .f32 (W2 m ρ c (Proc.devRef .tc main_arg1))) transposes_S256x64_S64x256_1_0)
          shapeCasts_S64x256_S64x1x256 := by
    dsimp only [V3, W3]
    simp only [hostOps1]
    after_results <;> rfl
  rw [e, exit0_labels]
  refine (shapeCast_apply _ shapeCasts_S64x256_S64x1x256 (ix3 a' (0 : Fin 1) b) (ix2 a' b) ?_).trans ?_
  · refine (Shape.rowMajor_val_two (d := ![64, 256]) (ix2 a' b)).trans ?_
    refine Eq.trans ?_ (Shape.rowMajor_val_three (d := ![64, 1, 256]) (ix3 a' (0 : Fin 1) b)).symm
    show a'.val * 256 + b.val = (a'.val * 1 + 0) * 256 + b.val
    omega
  · refine transpose_apply [1, 0] _ transposes_S256x64_S64x256_1_0 (ix2 a' b) (ix2 b a') fun q => ?_
    match q with
    | ⟨0, _⟩ => rfl
    | ⟨1, _⟩ => rfl

/-- Its fourth operand: the ancestor table reshaped to [a, 1, p]. -/
theorem entry1_anc (a' p : Fin 64) : (V3 m ρ c main_v0 : S64x1x64.Idx → EReal) (ix3 a' (0 : Fin 1) p) = ancK a' p := by
  have e : (V3 m ρ c main_v0 : S64x1x64.Idx → EReal)
      = shapeCast S64x1x64 (fun i : S64x64.Idx => Ideal.ofBits .f32 (lit0 (S64x64.rowMajor i))) shapeCasts_S64x64_S64x1x64 := by
    dsimp only [V3, W3]
    simp only [hostOps1]
    after_results
    refine (W2_of_ne m ρ c main_v0 (by decide)).trans ?_
    dsimp only [W1]
    simp only [hostOps0]
    after_results <;> rfl
  rw [e]
  refine shapeCast_apply _ shapeCasts_S64x64_S64x1x64 (ix3 a' (0 : Fin 1) p) (ix2 a' p) ?_
  refine (Shape.rowMajor_val_two (d := ![64, 64]) (ix2 a' p)).trans ?_
  refine Eq.trans ?_ (Shape.rowMajor_val_three (d := ![64, 1, 64]) (ix3 a' (0 : Fin 1) p)).symm
  show a'.val * 64 + p.val = (a'.val * 1 + 0) * 64 + p.val
  omega

/-- Its fifth operand: the level-difference table reshaped to [a, 1, n]. -/
theorem entry1_ld (a' n : Fin 64) : (V3 m ρ c main_v1 : S64x1x64.Idx → EReal) (ix3 a' (0 : Fin 1) n) = ldK a' n := by
  have e : (V3 m ρ c main_v1 : S64x1x64.Idx → EReal)
      = shapeCast S64x1x64 (fun i : S64x64.Idx => Ideal.ofBits .f32 (lit1 (S64x64.rowMajor i))) shapeCasts_S64x64_S64x1x64 := by
    dsimp only [V3, W3]
    simp only [hostOps1]
    after_results
    refine (W2_of_ne m ρ c main_v1 (by decide)).trans ?_
    dsimp only [W1]
    simp only [hostOps0]
    after_results <;> rfl
  rw [e]
  refine shapeCast_apply _ shapeCasts_S64x64_S64x1x64 (ix3 a' (0 : Fin 1) n) (ix2 a' n) ?_
  refine (Shape.rowMajor_val_two (d := ![64, 64]) (ix2 a' n)).trans ?_
  refine Eq.trans ?_ (Shape.rowMajor_val_three (d := ![64, 1, 64]) (ix3 a' (0 : Fin 1) n)).symm
  show a'.val * 64 + n.val = (a'.val * 1 + 0) * 64 + n.val
  omega

/-- THE RESULT: given what each kernel leaves of its output window (the distances' array; the rows' lanes 0 and 1), the
    result buffer ends at the closing step of the row-by-row loss and count of the launch arguments. -/
theorem kernel_result
    (hD : ∀ (V : (c : Dev nD) → (b : Ref sig .tc) → Buf (Elt Ideal) ((c : Thread nD τ).loc b)) (c : Dev nD),
      (dat0 (F := Ideal) V c).arrAt 1 cfg0.N = fun j => Cert.TripletSpec.cosD (V c main_arg0) (j 0) (j 1) (j 2))
    (hL : ∀ (V : (c : Dev nD) → (b : Ref sig .tc) → Buf (Elt Ideal) ((c : Thread nD τ).loc b)) (c : Dev nD) (a : Fin 64),
      (dat1 (F := Ideal) V c).arrAt 5 cfg1.N (ix3 a (0 : Fin 1) (0 : Fin 128))
        = Cert.TripletSpec.lossRow (fun b a' p => V c main_v3 (ix3 a' b p)) (fun a' n => V c main_v1 (ix3 a' (0 : Fin 1) n))
            (fun b a' => V c main_v6 (ix3 a' (0 : Fin 1) b)) (fun b p => V c main_v4 (ix2 b p))
            (fun a' p => V c main_v0 (ix3 a' (0 : Fin 1) p)) a)
    (hC : ∀ (V : (c : Dev nD) → (b : Ref sig .tc) → Buf (Elt Ideal) ((c : Thread nD τ).loc b)) (c : Dev nD) (a : Fin 64),
      (dat1 (F := Ideal) V c).arrAt 5 cfg1.N (ix3 a (0 : Fin 1) (1 : Fin 128))
        = Cert.TripletSpec.countRow (fun b a' => V c main_v6 (ix3 a' (0 : Fin 1) b)) (fun b p => V c main_v4 (ix2 b p))
            (fun a' p => V c main_v0 (ix3 a' (0 : Fin 1) p)) a) :
    (W6 m ρ c (Proc.devRef .tc main_v17) : S_.Idx → EReal)
      = Cert.TripletSpec.closing
          (fun _ => Cert.TripletSpec.lossK (Cert.TripletSpec.cosD (m ((c.tc : Thread nD τ).loc main_arg0))) ldK
            (fun b l => labels m c (ix2 b l)) ancK)
          (fun _ => Cert.TripletSpec.countK (fun b l => labels m c (ix2 b l)) ancK) := by
  have eD : (fun (b : Fin 256) (a' p : Fin 64) => (V3 m ρ c main_v3 : S64x256x64.Idx → EReal) (ix3 a' b p))
      = Cert.TripletSpec.cosD (m ((c.tc : Thread nD τ).loc main_arg0)) := by
    funext b a' p
    refine (entry1_dist m ρ c a' b p).trans ?_
    rw [dist_array, hD, entry0_features]
    rfl
  have eLd : (fun (a' n : Fin 64) => (V3 m ρ c main_v1 : S64x1x64.Idx → EReal) (ix3 a' (0 : Fin 1) n)) = ldK := by
    funext a' n; exact entry1_ld m ρ c a' n
  have eLabA : (fun (b : Fin 256) (a' : Fin 64) => (V3 m ρ c main_v6 : S64x1x256.Idx → EReal) (ix3 a' (0 : Fin 1) b))
      = fun b l => labels m c (ix2 b l) := by
    funext b a'; exact entry1_labT m ρ c a' b
  have eLab : (fun (b : Fin 256) (p : Fin 64) => (V3 m ρ c main_v4 : S256x64.Idx → EReal) (ix2 b p))
      = fun b l => labels m c (ix2 b l) := by
    funext b p; rw [entry1_lab]
  have eAnc : (fun (a' p : Fin 64) => (V3 m ρ c main_v0 : S64x1x64.Idx → EReal) (ix3 a' (0 : Fin 1) p)) = ancK := by
    funext a' p; exact entry1_anc m ρ c a' p
  rw [result_closing, rows_array]
  refine congrArg₂ Cert.TripletSpec.closing (funext fun j => ?_) (funext fun j => ?_)
  · rw [laneSum_apply ![0, 0, 0] _ _ (0 : Fin 128) rfl rfl rfl j]
    unfold Cert.TripletSpec.lossK
    refine Finset.sum_congr rfl fun a _ => ?_
    rw [hL (V3 m ρ) c a, eD, eLd, eLabA, eLab, eAnc]
  · rw [laneSum_apply ![0, 0, 1] _ _ (1 : Fin 128) rfl rfl rfl j]
    unfold Cert.TripletSpec.countK
    refine Finset.sum_congr rfl fun a _ => ?_
    rw [hC (V3 m ρ) c a, eLabA, eLab, eAnc]

end Glue

end Cert.KernelIdeal.ValueRun

end
-- ==== Proof.lean ====
/-
  The certificate of the hierarchical triplet loss kernel against its reference.

  Both programs compute, from features X : [256, 64, 1024] and integer labels : [256, 64], the cosine distances
  D[b, l, m] = 1 - ⟨u[b, l, :], u[b, m, :]⟩ of the rows normalised by max(‖·‖, floor), and from them the loss: over
  triplets (b, a, p, n) the hinge max(D[b,a,p] - (D[b,a,n] - 1·ld[a,n]), 0) weighted by the mask
  lab[b,a]·lab[b,p]·lab[b,n]·anc[a,p]·(1 - anc[a,n]), summed, and divided by max(count, 1) where the count of masks is
  positive. The kernel program groups the mask as (lab_a·(lab_p·lab_n))·(anc·(1 - anc)), sums over n, p, b inside a
  kernel run once per anchor label a, and sums the 64 rows on the host; the reference multiplies the mask's factors
  left to right and takes one sum over all (b, a, p, n). On the extended reals · is commutative and associative and
  finite sums may be reordered, so the two results are equal for every input: finiteness of the inputs is not used.
  The two 64 × 64 constant tables are the same words in both programs. Nothing was rewritten by the ideal pass, so the
  idealized kernel is the kernel's own text read at the ideal values.
-/
import proofs.«154496_j7928509628770_2_alg».proof.Defs
import proofs.«154496_j7928509628770_2_alg».proof.Proof.Gen.Kernel
import proofs.«154496_j7928509628770_2_alg».proof.Proof.Gen.Kernel.Skeleton
import proofs.«154496_j7928509628770_2_alg».proof.Proof.Gen.Kernel.Launch
import proofs.«154496_j7928509628770_2_alg».proof.Proof.Gen.Kernel.Points
import proofs.«154496_j7928509628770_2_alg».proof.Proof.Gen.Kernel.Frame
import proofs.«154496_j7928509628770_2_alg».proof.Proof.Gen.KernelIdeal
import proofs.«154496_j7928509628770_2_alg».proof.Proof.Gen.KernelIdeal.Skeleton
import proofs.«154496_j7928509628770_2_alg».proof.Proof.Gen.KernelIdeal.Launch
import proofs.«154496_j7928509628770_2_alg».proof.Proof.Gen.KernelIdeal.Points
import proofs.«154496_j7928509628770_2_alg».proof.Proof.Gen.KernelIdeal.Frame
import proofs.«154496_j7928509628770_2_alg».proof.Proof.Gen.ReferenceIdeal
import proofs.«154496_j7928509628770_2_alg».proof.Proof.Gen.Pre_finite_inputs
import proofs.«154496_j7928509628770_2_alg».proof.Proof.Spec
import proofs.«154496_j7928509628770_2_alg».proof.Proof.RefTerm
import proofs.«154496_j7928509628770_2_alg».proof.Proof.RefRun
import proofs.«154496_j7928509628770_2_alg».proof.Proof.RefRead
import proofs.«154496_j7928509628770_2_alg».proof.Proof.DistRegion
import proofs.«154496_j7928509628770_2_alg».proof.Proof.RowRegion
import proofs.«154496_j7928509628770_2_alg».proof.Proof.KernelValue
import Idealize.ShloMosaic.Adequacy
import Idealize.ShloMosaic.Init

noncomputable section

namespace Cert.Proof

open Idealize.ShloMosaic Idealize.ShloMosaic.TcCoe Idealize.ShloMosaic.ValueIdx Idealize.SL.Sem

/-- The ancestor table is the same list of words in both programs … -/
theorem anc_words : Cert.KernelIdeal.lit0 = Cert.ReferenceIdeal.lit0 := rfl
/-- … and so is the level-difference table. -/
theorem ld_words : Cert.KernelIdeal.lit1 = Cert.ReferenceIdeal.lit1 := rfl

/-- So the reference's ancestor table, entry by entry, is the kernel program's. -/
theorem anc_tables : (fun a p : Fin 64 => Cert.ReferenceIdeal.RefValue.ancTable (F := Ideal) (ix2 a p))
    = Cert.KernelIdeal.ValueRun.ancK := by
  funext a p
  show Ideal.ofBits .f32 (Cert.ReferenceIdeal.lit0 (Cert.ReferenceIdeal.S64x64.rowMajor (ix2 a p)))
    = Ideal.ofBits .f32 (Cert.KernelIdeal.lit0 (Cert.KernelIdeal.S64x64.rowMajor (ix2 a p)))
  rw [anc_words]
/-- And the level differences likewise. -/
theorem ld_tables : (fun a n : Fin 64 => Cert.ReferenceIdeal.RefValue.ldTable (F := Ideal) (ix2 a n))
    = Cert.KernelIdeal.ValueRun.ldK := by
  funext a n
  show Ideal.ofBits .f32 (Cert.ReferenceIdeal.lit1 (Cert.ReferenceIdeal.S64x64.rowMajor (ix2 a n)))
    = Ideal.ofBits .f32 (Cert.KernelIdeal.lit1 (Cert.KernelIdeal.S64x64.rowMajor (ix2 a n)))
  rw [ld_words]

/-- The kernel program runs and keeps its arguments. -/
theorem frame_k : Cert.frame_Kernel := fun m ρ _ => Cert.Kernel.Gen.frame m ρ
/-- So does its reading at the ideal values. -/
theorem frame_ki : Cert.frame_KernelIdeal := fun m ρ _ => Cert.KernelIdeal.Gen.frame m ρ
/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote nothing. -/
theorem preserves : Cert.preserves_Kernel_KernelIdeal := trivial

/-- From memories agreeing on the arguments both programs end with the closing step of the same loss and the same
    count: the kernel program's summed row by row, the reference's summed over every triplet, equal by `loss_eq` and
    `count_eq`. -/
theorem algebraic : Cert.algebraic_KernelIdeal_ReferenceIdeal := by
  intro m ρ m' ρ' _ hagree
  refine ⟨fun c => Cert.TripletSpec.closing
      (fun _ => Cert.TripletSpec.lossK (Cert.TripletSpec.cosD (m ((c.tc : Thread Cert.KernelIdeal.nD Cert.KernelIdeal.τ).loc Cert.KernelIdeal.main_arg0)))
        Cert.KernelIdeal.ValueRun.ldK (fun b l => Cert.KernelIdeal.ValueRun.labels m c (ix2 b l)) Cert.KernelIdeal.ValueRun.ancK)
      (fun _ => Cert.TripletSpec.countK (fun b l => Cert.KernelIdeal.ValueRun.labels m c (ix2 b l)) Cert.KernelIdeal.ValueRun.ancK), ?_, ?_⟩
  · exact (θ_run Cert.KernelIdeal.defs _ _).mono
      (fun r h c => ⟨(h c).1.trans (Cert.KernelIdeal.ValueRun.kernel_result m ρ c Cert.KernelIdeal.RegionValue.cosdist_array
        Cert.KernelIdeal.RegionValue.row_loss Cert.KernelIdeal.RegionValue.row_count), (h c).2⟩)
      (Cert.KernelIdeal.ValueRun.run_result m ρ)
  · refine (θ_run Cert.ReferenceIdeal.defs _ _).mono (fun r h c => ⟨(h c).1.trans ?_, (h c).2⟩)
      (Cert.ReferenceIdeal.RefValue.run (F := Ideal) m' ρ')
    rw [(hagree c).1, (hagree c).2, Cert.ReferenceIdeal.RefValue.resultTerm_eq, ← Cert.TripletSpec.loss_eq,
      ← Cert.TripletSpec.count_eq, anc_tables, ld_tables]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
